-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x600000 : Shape := ⟨2, ![2, 600000]⟩
abbrev S100000x128 : Shape := ⟨2, ![100000, 128]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn {F : FTy → Type} [FloatOps F] (main_arg0 : IVec S2x600000 32) (main_arg1 : FVec F S100000x128 .f32) (main_arg2 : FVec F S3x128x128 .f32) (main_arg3 : FVec F S3x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  main_v13
-- ==== Kernel.lean ====
abbrev S2x600000 : Shape := ⟨2, ![2, 600000]⟩
abbrev S100000x128 : Shape := ⟨2, ![100000, 128]⟩
abbrev S3x128x128 : Shape := ⟨3, ![3, 128, 128]⟩
abbrev S3x128 : Shape := ⟨2, ![3, 128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S1x128x128 : Shape := ⟨3, ![1, 128, 128]⟩
abbrev S128x128 : Shape := ⟨2, ![128, 128]⟩
abbrev S5000x128 : Shape := ⟨2, ![5000, 128]⟩
abbrev S700000x128 : Shape := ⟨2, ![700000, 128]⟩
abbrev S4000x128 : Shape := ⟨2, ![4000, 128]⟩
abbrev S4000x1 : Shape := ⟨2, ![4000, 1]⟩
abbrev S1x128 : Shape := ⟨2, ![1, 128]⟩
abbrev S128 : Shape := ⟨1, ![128]⟩

abbrev nBuf : Space → Nat
  | .hbm => 115
  | .vmem => 48
  | .smem => 0
  | _ => 0

abbrev bufTy : (tb : Table) → Fin (tcTables nBuf tb) → BufTy
  | .hbm, ⟨0, _⟩ => ⟨S2x600000, .i32⟩
  | .hbm, ⟨1, _⟩ => ⟨S100000x128, .f32⟩
  | .hbm, ⟨2, _⟩ => ⟨S3x128x128, .f32⟩
  | .hbm, ⟨3, _⟩ => ⟨S3x128, .f32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S_, .f32⟩
  | .hbm, ⟨12, _⟩ => ⟨S700000, .f32⟩
  | .hbm, ⟨13, _⟩ => ⟨S_, .f32⟩
  | .hbm, ⟨14, _⟩ => ⟨S100000, .f32⟩
  | .hbm, ⟨15, _⟩ => ⟨S700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S700000, .i32⟩
  | .hbm, ⟨34, _⟩ => ⟨S700000, .i1⟩
  | .hbm, ⟨35, _⟩ => ⟨S_, .i32⟩
  | .hbm, ⟨36, _⟩ => ⟨S700000, .i32⟩
  | .hbm, ⟨37, _⟩ => ⟨S700000, .i32⟩
  | .hbm, ⟨38, _⟩ => ⟨S700000, .i32⟩
  | .hbm, ⟨39, _⟩ => ⟨S700000x1, .i32⟩
  | .hbm, ⟨40, _⟩ => ⟨S700000, .f32⟩
  | .hbm, ⟨41, _⟩ => ⟨S_, .i32⟩
  | .hbm, ⟨42, _⟩ => ⟨S700000, .i32⟩
  | .hbm, ⟨43, _⟩ => ⟨S700000, .i1⟩
  | .hbm, ⟨44, _⟩ => ⟨S_, .i32⟩
  | .hbm, ⟨45, _⟩ => ⟨S700000, .i32⟩
  | .hbm, ⟨46, _⟩ => ⟨S700000, .i32⟩
  | .hbm, ⟨47, _⟩ => ⟨S700000, .i32⟩
  | .hbm, ⟨48, _⟩ => ⟨S700000x1, .i32⟩
  | .hbm, ⟨49, _⟩ => ⟨S700000, .f32⟩
  | .hbm, ⟨50, _⟩ => ⟨S700000, .f32⟩
  | .hbm, ⟨51, _⟩ => ⟨S700000x1, .f32⟩
  | .hbm, ⟨52, _⟩ => ⟨S1x128x128, .f32⟩
  | .hbm, ⟨53, _⟩ => ⟨S128x128, .f32⟩
  | .hbm, ⟨54, _⟩ => ⟨S100000x128, .f32⟩
  | .hbm, ⟨55, _⟩ => ⟨S_, .i32⟩
  | .hbm, ⟨56, _⟩ => ⟨S700000, .i32⟩
  | .hbm, ⟨57, _⟩ => ⟨S700000, .i1⟩
  | .hbm, ⟨58, _⟩ => ⟨S_, .i32⟩
  | .hbm, ⟨59, _⟩ => ⟨S700000, .i32⟩
  | .hbm, ⟨60, _⟩ => ⟨S700000, .i32⟩
  | .hbm, ⟨61, _⟩ => ⟨S700000, .i32⟩
  | .hbm, ⟨62, _⟩ => ⟨S700000x1, .i32⟩
  | .hbm, ⟨63, _⟩ => ⟨S700000x128, .f32⟩
  | .hbm, ⟨64, _⟩ => ⟨S700000x128, .f32⟩
  | .hbm, ⟨65, _⟩ => ⟨S_, .f32⟩
  | .hbm, ⟨66, _⟩ => ⟨S100000x128, .f32⟩
  | .hbm, ⟨67, _⟩ => ⟨S700000x1, .i32⟩
  | .hbm, ⟨68, _⟩ => ⟨S100000x128, .f32⟩
  | .hbm, ⟨69, _⟩ => ⟨S1x128, .f32⟩
  | .hbm, ⟨70, _⟩ => ⟨S128, .f32⟩
  | .hbm, ⟨71, _⟩ => ⟨S1x128, .f32⟩
  | .hbm, ⟨72, _⟩ => ⟨S100000x128, .f32⟩
  | .hbm, ⟨73, _⟩ => ⟨S1x128x128, .f32⟩
  | .hbm, ⟨74, _⟩ => ⟨S128x128, .f32⟩
  | .hbm, ⟨75, _⟩ => ⟨S100000x128, .f32⟩
  | .hbm, ⟨76, _⟩ => ⟨S_, .i32⟩
  | .hbm, ⟨77, _⟩ => ⟨S700000, .i32⟩
  | .hbm, ⟨78, _⟩ => ⟨S700000, .i1⟩
  | .hbm, ⟨79, _⟩ => ⟨S_, .i32⟩
  | .hbm, ⟨80, _⟩ => ⟨S700000, .i32⟩
  | .hbm, ⟨81, _⟩ => ⟨S700000, .i32⟩
  | .hbm, ⟨82, _⟩ => ⟨S700000, .i32⟩
  | .hbm, ⟨83, _⟩ => ⟨S700000x1, .i32⟩
  | .hbm, ⟨84, _⟩ => ⟨S700000x128, .f32⟩
  | .hbm, ⟨85, _⟩ => ⟨S700000x128, .f32⟩
  | .hbm, ⟨86, _⟩ => ⟨S_, .f32⟩
  | .hbm, ⟨87, _⟩ => ⟨S100000x128, .f32⟩
  | .hbm, ⟨88, _⟩ => ⟨S700000x1, .i32⟩
  | .hbm, ⟨89, _⟩ => ⟨S100000x128, .f32⟩
  | .hbm, ⟨90, _⟩ => ⟨S1x128, .f32⟩
  | .hbm, ⟨91, _⟩ => ⟨S128, .f32⟩
  | .hbm, ⟨92, _⟩ => ⟨S1x128, .f32⟩
  | .hbm, ⟨93, _⟩ => ⟨S100000x128, .f32⟩
  | .hbm, ⟨94, _⟩ => ⟨S1x128x128, .f32⟩
  | .hbm, ⟨95, _⟩ => ⟨S128x128, .f32⟩
  | .hbm, ⟨96, _⟩ => ⟨S100000x128, .f32⟩
  | .hbm, ⟨97, _⟩ => ⟨S_, .i32⟩
  | .hbm, ⟨98, _⟩ => ⟨S700000, .i32⟩
  | .hbm, ⟨99, _⟩ => ⟨S700000, .i1⟩
  | .hbm, ⟨100, _⟩ => ⟨S_, .i32⟩
  | .hbm, ⟨101, _⟩ => ⟨S700000, .i32⟩
  | .hbm, ⟨102, _⟩ => ⟨S700000, .i32⟩
  | .hbm, ⟨103, _⟩ => ⟨S700000, .i32⟩
  | .hbm, ⟨104, _⟩ => ⟨S700000x1, .i32⟩
  | .hbm, ⟨105, _⟩ => ⟨S700000x128, .f32⟩
  | .hbm, ⟨106, _⟩ => ⟨S700000x128, .f32⟩
  | .hbm, ⟨107, _⟩ => ⟨S_, .f32⟩
  | .hbm, ⟨108, _⟩ => ⟨S100000x128, .f32⟩
  | .hbm, ⟨109, _⟩ => ⟨S700000x1, .i32⟩
  | .hbm, ⟨110, _⟩ => ⟨S100000x128, .f32⟩
  | .hbm, ⟨111, _⟩ => ⟨S1x128, .f32⟩
  | .hbm, ⟨112, _⟩ => ⟨S128, .f32⟩
  | .hbm, ⟨113, _⟩ => ⟨S1x128, .f32⟩
  | .hbm, ⟨114, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S4000x128, .f32⟩
  | .local _ .vmem, ⟨6, _⟩ => ⟨S4000x128, .f32⟩
  | .local _ .vmem, ⟨7, _⟩ => ⟨S4000x1, .f32⟩
  | .local _ .vmem, ⟨8, _⟩ => ⟨S4000x1, .f32⟩
  | .local _ .vmem, ⟨9, _⟩ => ⟨S4000x128, .f32⟩
  | .local _ .vmem, ⟨10, _⟩ => ⟨S4000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S4000x128, .f32⟩
  | .local _ .vmem, ⟨22, _⟩ => ⟨S4000x128, .f32⟩
  | .local _ .vmem, ⟨23, _⟩ => ⟨S4000x1, .f32⟩
  | .local _ .vmem, ⟨24, _⟩ => ⟨S4000x1, .f32⟩
  | .local _ .vmem, ⟨25, _⟩ => ⟨S4000x128, .f32⟩
  | .local _ .vmem, ⟨26, _⟩ => ⟨S4000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S5000x128, .f32⟩
  | .local _ .vmem, ⟨36, _⟩ => ⟨S5000x128, .f32⟩
  | .local _ .vmem, ⟨37, _⟩ => ⟨S4000x128, .f32⟩
  | .local _ .vmem, ⟨38, _⟩ => ⟨S4000x128, .f32⟩
  | .local _ .vmem, ⟨39, _⟩ => ⟨S4000x1, .f32⟩
  | .local _ .vmem, ⟨40, _⟩ => ⟨S4000x1, .f32⟩
  | .local _ .vmem, ⟨41, _⟩ => ⟨S4000x128, .f32⟩
  | .local _ .vmem, ⟨42, _⟩ => ⟨S4000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S2x600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_14 : Ref sig .tc := ⟨.hbm, 97, rfl⟩
abbrev main_v73 : Ref sig .tc := ⟨.hbm, 98, rfl⟩
abbrev main_v74 : Ref sig .tc := ⟨.hbm, 99, rfl⟩
abbrev main_c_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_16 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![175], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![175], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![175], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  shapeCasts_S700000_S700000x1 : S700000.ShapeCasts S700000x1
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S700000x128.size a
  hwx1_0 : ∀ i : grid1.Coords, EltTy.bits .f32 = 32 ∨ (Rect.block (s := S700000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S700000x1.size a
  hwx1_1 : ∀ i : grid1.Coords, EltTy.bits .f32 = 32 ∨ (Rect.block (s := S700000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S700000x128.size a
  hwx1_2 : ∀ i : grid1.Coords, EltTy.bits .f32 = 32 ∨ (Rect.block (s := S700000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S700000x128.size a
  hwx4_0 : ∀ i : grid4.Coords, EltTy.bits .f32 = 32 ∨ (Rect.block (s := S700000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S700000x1.size a
  hwx4_1 : ∀ i : grid4.Coords, EltTy.bits .f32 = 32 ∨ (Rect.block (s := S700000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S700000x128.size a
  hwx4_2 : ∀ i : grid4.Coords, EltTy.bits .f32 = 32 ∨ (Rect.block (s := S700000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S700000x128.size a
  hwx7_0 : ∀ i : grid7.Coords, EltTy.bits .f32 = 32 ∨ (Rect.block (s := S700000x128) S4000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x1.size a ≤ S700000x1.size a
  hwx7_1 : ∀ i : grid7.Coords, EltTy.bits .f32 = 32 ∨ (Rect.block (s := S700000x1) S4000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x128.size a ≤ S700000x128.size a
  hwx7_2 : ∀ i : grid7.Coords, EltTy.bits .f32 = 32 ∨ (Rect.block (s := S700000x128) S4000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v65) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v69) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v71) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v72) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v79) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v33) S4000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v80) S4000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v83) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v86) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v87) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S2x600000 : Shape := ⟨2, ![2, 600000]⟩
abbrev S100000x128 : Shape := ⟨2, ![100000, 128]⟩
abbrev S3x128x128 : Shape := ⟨3, ![3, 128, 128]⟩
abbrev S3x128 : Shape := ⟨2, ![3, 128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S1x128x128 : Shape := ⟨3, ![1, 128, 128]⟩
abbrev S128x128 : Shape := ⟨2, ![128, 128]⟩
abbrev S700000x128 : Shape := ⟨2, ![700000, 128]⟩
abbrev S1x128 : Shape := ⟨2, ![1, 128]⟩
abbrev S128 : Shape := ⟨1, ![128]⟩

abbrev nBuf : Space → Nat
  | .hbm => 132
  | .vmem => 0
  | .smem => 0
  | _ => 0

abbrev hbmTy0_0 (i : Nat) : BufTy := match i % 128 with
  | 0 => ⟨S2x600000, .i32⟩
  | 1 => ⟨S100000x128, .f32⟩
  | 2 => ⟨S3x128x128, .f32⟩
  | 3 => ⟨S3x128, .f32⟩
  | 4 => ⟨S100000, .i32⟩
  | 5 => ⟨S1x600000, .i32⟩
  | 6 => ⟨S600000, .i32⟩
  | 7 => ⟨S700000, .i32⟩
  | 8 => ⟨S1x600000, .i32⟩
  | 9 => ⟨S600000, .i32⟩
  | 10 => ⟨S700000, .i32⟩
  | 11 => ⟨S_, .f32⟩
  | 12 => ⟨S700000, .f32⟩
  | 13 => ⟨S_, .f32⟩
  | 14 => ⟨S100000, .f32⟩
  | 15 => ⟨S700000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .i1⟩
  | 23 => ⟨S_, .f32⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S700000, .i32⟩
  | 34 => ⟨S700000, .i1⟩
  | 35 => ⟨S_, .i32⟩
  | 36 => ⟨S700000, .i32⟩
  | 37 => ⟨S700000, .i32⟩
  | 38 => ⟨S700000, .i32⟩
  | 39 => ⟨S700000x1, .i32⟩
  | 40 => ⟨S700000, .f32⟩
  | 41 => ⟨S_, .i32⟩
  | 42 => ⟨S700000, .i32⟩
  | 43 => ⟨S700000, .i1⟩
  | 44 => ⟨S_, .i32⟩
  | 45 => ⟨S700000, .i32⟩
  | 46 => ⟨S700000, .i32⟩
  | 47 => ⟨S700000, .i32⟩
  | 48 => ⟨S700000x1, .i32⟩
  | 49 => ⟨S700000, .f32⟩
  | 50 => ⟨S700000, .f32⟩
  | 51 => ⟨S1x128x128, .f32⟩
  | 52 => ⟨S128x128, .f32⟩
  | 53 => ⟨S100000x128, .f32⟩
  | 54 => ⟨S_, .i32⟩
  | 55 => ⟨S700000, .i32⟩
  | 56 => ⟨S700000, .i1⟩
  | 57 => ⟨S_, .i32⟩
  | 58 => ⟨S700000, .i32⟩
  | 59 => ⟨S700000, .i32⟩
  | 60 => ⟨S700000, .i32⟩
  | 61 => ⟨S700000x1, .i32⟩
  | 62 => ⟨S700000x128, .f32⟩
  | 63 => ⟨S700000x1, .f32⟩
  | 64 => ⟨S700000x128, .f32⟩
  | 65 => ⟨S700000x128, .f32⟩
  | 66 => ⟨S_, .f32⟩
  | 67 => ⟨S100000x128, .f32⟩
  | 68 => ⟨S700000x1, .i32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S1x128x128, .f32⟩
  | 79 => ⟨S128x128, .f32⟩
  | 80 => ⟨S100000x128, .f32⟩
  | 81 => ⟨S_, .i32⟩
  | 82 => ⟨S700000, .i32⟩
  | 83 => ⟨S700000, .i1⟩
  | 84 => ⟨S_, .i32⟩
  | 85 => ⟨S700000, .i32⟩
  | 86 => ⟨S700000, .i32⟩
  | 87 => ⟨S700000, .i32⟩
  | 88 => ⟨S700000x1, .i32⟩
  | 89 => ⟨S700000x128, .f32⟩
  | 90 => ⟨S700000x1, .f32⟩
  | 91 => ⟨S700000x128, .f32⟩
  | 92 => ⟨S700000x128, .f32⟩
  | 93 => ⟨S_, .f32⟩
  | 94 => ⟨S100000x128, .f32⟩
  | 95 => ⟨S700000x1, .i32⟩
  | 96 => ⟨S100000x128, .f32⟩
  | 97 => ⟨S1x128, .f32⟩
  | 98 => ⟨S128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S1x128x128, .f32⟩
  | 106 => ⟨S128x128, .f32⟩
  | 107 => ⟨S100000x128, .f32⟩
  | 108 => ⟨S_, .i32⟩
  | 109 => ⟨S700000, .i32⟩
  | 110 => ⟨S700000, .i1⟩
  | 111 => ⟨S_, .i32⟩
  | 112 => ⟨S700000, .i32⟩
  | 113 => ⟨S700000, .i32⟩
  | 114 => ⟨S700000, .i32⟩
  | 115 => ⟨S700000x1, .i32⟩
  | 116 => ⟨S700000x128, .f32⟩
  | 117 => ⟨S700000x1, .f32⟩
  | 118 => ⟨S700000x128, .f32⟩
  | 119 => ⟨S700000x128, .f32⟩
  | 120 => ⟨S_, .f32⟩
  | 121 => ⟨S100000x128, .f32⟩
  | 122 => ⟨S700000x1, .i32⟩
  | 123 => ⟨S100000x128, .f32⟩
  | 124 => ⟨S1x128, .f32⟩
  | 125 => ⟨S128, .f32⟩
  | 126 => ⟨S1x128, .f32⟩
  | 127 => ⟨S100000x128, .f32⟩
  | _ => ⟨S2x600000, .i32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | _ => ⟨S2x600000, .i32⟩

abbrev hbmTy (i : Nat) : BufTy := match i / 128 with
  | 0 => hbmTy0_0 i
  | 1 => hbmTy0_1 i
  | _ => ⟨S2x600000, .i32⟩

abbrev bufTy : (tb : Table) → Fin (tcTables nBuf tb) → BufTy
  | .hbm, ⟨i, _⟩ => hbmTy i
  | _, _ => ⟨S2x600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call2_cst : Ref sig .tc := ⟨.hbm, 75, rfl⟩
abbrev main_call2_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_call3_cst : Ref sig .tc := ⟨.hbm, 102, rfl⟩
abbrev main_call3_v0 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_14 : Ref sig .tc := ⟨.hbm, 108, rfl⟩
abbrev main_v80 : Ref sig .tc := ⟨.hbm, 109, rfl⟩
abbrev main_v81 : Ref sig .tc := ⟨.hbm, 110, rfl⟩
abbrev main_c_15 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_call4_cst : Ref sig .tc := ⟨.hbm, 129, rfl⟩
abbrev main_call4_v0 : Ref sig .tc := ⟨.hbm, 130, rfl⟩
abbrev main_v98 : Ref sig .tc := ⟨.hbm, 131, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  slices_S3x128x128_S1x128x128_0_0_0 : S3x128x128.Slices ![0, 0, 0] S1x128x128
  shapeCasts_S1x128x128_S128x128 : S1x128x128.ShapeCasts S128x128
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.KernelRun.lean ====
/-
  The idealized kernel program, run: every weakly fair execution of @main ends with the result array
  (the last bias-and-relu call's output) at what the fold of the program's segments leaves there, and with the four
  argument arrays as launched. The fold `W22` is the buffer contents after the last of the nine kernel calls: each
  stretch of host operations applied in order, each kernel call's output array at what its write-backs leave.
  The other modules read that fold, segment by segment, as a function of the arguments.
-/
import proofs.«143396_j58600533786650_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the final state holds, at the result's buffer, the last boundary's contents
    `W22`; the arguments are as launched. (The launch over the segments, the last thread state read against the final
    state; the result's buffer is one of the unscoped buffers that state holds.) -/
theorem run : θ_run defs (onTc (τ := τ) (main (F := F))) ⟨m, fun _ => 0, ρ⟩ (fun r => ∀ c : Dev nD,
      r.2.mem ((c.tc : Thread nD τ).loc main_v87) = W22 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v87 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c)⟩)

end Cert.KernelIdeal.RunV

end
-- ==== Proof.KernelBodies.lean ====
/-
  The three kernel bodies' arithmetic at one element, over the extended reals. A body stores one value: for the
  matmul body the product of its [5000,128] block of rows with the [128,128] weights (the two roundings to
  bf16 are the identity on extended reals, and the accumulator starts at zero, so element (p,q) is the sum over k of
  x(p,k)·w(k,q)); for the scaling body the block times its [4000,1] column spread over the 128 lanes; for the bias body the
  block plus its [1,128] row spread over the rows, then the maximum with zero.
-/
import proofs.«143396_j58600533786650_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- A block is read and written through the rectangle at offset zero of its own size. -/
theorem zero_off : (![0, 0] : Fin 2 → Nat) = fun _ => 0 := funext fun a => by fin_cases a <;> rfl

/-! ## The contraction's operand indices: row p of the left block against column q of the right -/

theorem lhs_row (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u
theorem rhs_contr (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u
theorem rhs_col (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a [5000,128] block with the [128,128] weights into a zero accumulator, at (p,q): Σ_k x(p,k)·w(k,q). -/
theorem matmul_rows (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- A [4000,1] column spread over 128 lanes, at (p,q): the column at (p,0). -/
theorem spread_col (v : FVec Ideal S4000x1 .f32) (p : Fin 4000) (q : Fin 128) :
    broadcastTo S4000x128 v broadcasts_S4000x1_S4000x128 (ix2 p q) = v (ix2 p (0 : Fin 1)) :=
  broadcastTo_apply v broadcasts_S4000x1_S4000x128 (ix2 p q) (ix2 p (0 : Fin 1)) (fun a => match a with
    | ⟨0, _⟩ => by show p.val = if (4000 : Nat) = 1 then 0 else p.val; rw [if_neg (by decide)]
    | ⟨1, _⟩ => by show (0 : Nat) = if (1 : Nat) = 1 then 0 else q.val; rw [if_pos rfl])

/-- A [1,128] row spread over 5000 rows, at (p,q): the row at (0,q). -/
theorem spread_row (v : FVec Ideal S1x128 .f32) (p : Fin 5000) (q : Fin 128) :
    broadcastTo S5000x128 v broadcasts_S1x128_S5000x128 (ix2 p q) = v (ix2 (0 : Fin 1) q) :=
  broadcastTo_apply v broadcasts_S1x128_S5000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-! ## The three bodies (each printed three times, once per layer: the same term) -/

/-- The matmul body at (p,q). -/
theorem pay_linear (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (matmul_rows _ _ p q).trans ?_
  rw [shapeCast_self]
  rfl

/-- The scaling body at (p,q). -/
theorem pay_scale (x0 : Vec Ideal S4000x128 .f32) (x1 : Vec Ideal S4000x1 .f32) (p : Fin 4000) (q : Fin 128) :
    k1_pay1 (F := Ideal) x0 x1 (ix2 p q) = x0 (ix2 p q) * x1 (ix2 p (0 : Fin 1)) := by
  unfold k1_pay1
  show (shapeCast S4000x128 x0 shapeCasts_S4000x128_S4000x128) (ix2 p q)
      * (broadcastTo S4000x128 (shapeCast S4000x1 x1 shapeCasts_S4000x1_S4000x1) broadcasts_S4000x1_S4000x128) (ix2 p q) = _
  rw [shapeCast_self, shapeCast_self, spread_col]

/-- The bias-and-relu body at (p,q). -/
theorem pay_biasRelu (x0 : Vec Ideal S5000x128 .f32) (x1 : Vec Ideal S1x128 .f32) (p : Fin 5000) (q : Fin 128) :
    k2_pay1 (F := Ideal) x0 x1 (ix2 p q)
      = max (x0 (ix2 p q) + x1 (ix2 (0 : Fin 1) q)) (FloatOps.ofBits (F := Ideal) .f32 0x00000000#32) := by
  unfold k2_pay1
  show max ((shapeCast S5000x128 x0 shapeCasts_S5000x128_S5000x128) (ix2 p q)
      + (broadcastTo S5000x128 (shapeCast S1x128 x1 shapeCasts_S1x128_S1x128) broadcasts_S1x128_S5000x128) (ix2 p q)) _ = _
  rw [shapeCast_self, shapeCast_self, spread_row]
  rfl

/-- The later layers' matmul body (its block comes through one more identity cast) at (p,q). -/
theorem pay_linear' (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  unfold k3_pay1
  refine (matmul_rows _ _ p q).trans ?_
  rw [shapeCast_self, shapeCast_self]
  rfl

/-- The second and third layers' bodies are the same terms. -/
theorem pay6_eq : @k6_pay1 Ideal _ = k3_pay1 := rfl
theorem pay4_eq : @k4_pay1 Ideal _ = k1_pay1 := rfl
theorem pay7_eq : @k7_pay1 Ideal _ = k1_pay1 := rfl
theorem pay5_eq : @k5_pay1 Ideal _ = k2_pay1 := rfl
theorem pay8_eq : @k8_pay1 Ideal _ = k2_pay1 := rfl

/-! ## The same at any index of the block -/

theorem lin0_at (x0 : Vec Ideal S5000x128 .f32) (x1 : Vec Ideal S128x128 .f32) (j : S5000x128.Idx) :
    k0_pay1 (F := Ideal) x0 x1 j = ∑ k : Fin 128, x0 (ix2 (j 0) k) * x1 (ix2 k (j 1)) :=
  (congrArg (k0_pay1 (F := Ideal) x0 x1) (eq_ix2 j)).trans (pay_linear x0 x1 (j 0) (j 1))
theorem lin3_at (x0 : Vec Ideal S5000x128 .f32) (x1 : Vec Ideal S128x128 .f32) (j : S5000x128.Idx) :
    k3_pay1 (F := Ideal) x0 x1 j = ∑ k : Fin 128, x0 (ix2 (j 0) k) * x1 (ix2 k (j 1)) :=
  (congrArg (k3_pay1 (F := Ideal) x0 x1) (eq_ix2 j)).trans (pay_linear' x0 x1 (j 0) (j 1))
theorem lin6_at (x0 : Vec Ideal S5000x128 .f32) (x1 : Vec Ideal S128x128 .f32) (j : S5000x128.Idx) :
    k6_pay1 (F := Ideal) x0 x1 j = ∑ k : Fin 128, x0 (ix2 (j 0) k) * x1 (ix2 k (j 1)) := by
  rw [pay6_eq]; exact lin3_at x0 x1 j
theorem scale1_at (x0 : Vec Ideal S4000x128 .f32) (x1 : Vec Ideal S4000x1 .f32) (j : S4000x128.Idx) :
    k1_pay1 (F := Ideal) x0 x1 j = x0 j * x1 (ix2 (j 0) (0 : Fin 1)) :=
  (congrArg (k1_pay1 (F := Ideal) x0 x1) (eq_ix2 j)).trans ((pay_scale x0 x1 (j 0) (j 1)).trans (congrArg (fun z => x0 z * x1 (ix2 (j 0) (0 : Fin 1))) (eq_ix2 j).symm))
theorem scale4_at (x0 : Vec Ideal S4000x128 .f32) (x1 : Vec Ideal S4000x1 .f32) (j : S4000x128.Idx) :
    k4_pay1 (F := Ideal) x0 x1 j = x0 j * x1 (ix2 (j 0) (0 : Fin 1)) := by
  rw [pay4_eq]; exact scale1_at x0 x1 j
theorem scale7_at (x0 : Vec Ideal S4000x128 .f32) (x1 : Vec Ideal S4000x1 .f32) (j : S4000x128.Idx) :
    k7_pay1 (F := Ideal) x0 x1 j = x0 j * x1 (ix2 (j 0) (0 : Fin 1)) := by
  rw [pay7_eq]; exact scale1_at x0 x1 j
theorem bias2_at (x0 : Vec Ideal S5000x128 .f32) (x1 : Vec Ideal S1x128 .f32) (j : S5000x128.Idx) :
    k2_pay1 (F := Ideal) x0 x1 j = max (x0 j + x1 (ix2 (0 : Fin 1) (j 1))) (FloatOps.ofBits (F := Ideal) .f32 0x00000000#32) :=
  (congrArg (k2_pay1 (F := Ideal) x0 x1) (eq_ix2 j)).trans ((pay_biasRelu x0 x1 (j 0) (j 1)).trans (congrArg (fun z => max (x0 z + x1 (ix2 (0 : Fin 1) (j 1))) (FloatOps.ofBits (F := Ideal) .f32 0x00000000#32)) (eq_ix2 j).symm))
theorem bias5_at (x0 : Vec Ideal S5000x128 .f32) (x1 : Vec Ideal S1x128 .f32) (j : S5000x128.Idx) :
    k5_pay1 (F := Ideal) x0 x1 j = max (x0 j + x1 (ix2 (0 : Fin 1) (j 1))) (FloatOps.ofBits (F := Ideal) .f32 0x00000000#32) := by
  rw [pay5_eq]; exact bias2_at x0 x1 j
theorem bias8_at (x0 : Vec Ideal S5000x128 .f32) (x1 : Vec Ideal S1x128 .f32) (j : S5000x128.Idx) :
    k8_pay1 (F := Ideal) x0 x1 j = max (x0 j + x1 (ix2 (0 : Fin 1) (j 1))) (FloatOps.ofBits (F := Ideal) .f32 0x00000000#32) := by
  rw [pay8_eq]; exact bias2_at x0 x1 j

end Cert.KernelIdeal.Hand

end
-- ==== Proof.Spec.lean ====
/-
  One graph-convolution layer on 100000 nodes with 128 features and 700000 edges (the given edges and one
  self-loop per node), written as three whole-array functions over the extended reals, index by index:

    linear   x W  : node n, feature f  ↦  Σ_k x[n,k] · W[k,f]
    scale    h c  : edge e, feature f  ↦  h[e,f] · c[e,0]            (c a column of per-edge weights)
    biasRelu a b  : node n, feature f  ↦  max (a[n,f] + b[0,f]) 0    (b a row of biases)

  Between them a layer gathers the rows of `linear x W` at the edges' sources and adds the scaled rows into the
  edges' destinations; both programs do those two steps with the same host operations, so they are not restated
  here. The zero of the relu is kept as the float word both programs print.
-/
import Idealize.ShloMosaic.PureOps.Ideal
import Idealize.ShloMosaic.Lib.ValueIdx

noncomputable section

namespace Cert.GcnLayer

open Idealize.ShloMosaic

/-- Node features [100000, 128]. -/
abbrev Nodes : Shape := ⟨2, ![100000, 128]⟩
/-- A layer's weight matrix [128, 128]. -/
abbrev Weights : Shape := ⟨2, ![128, 128]⟩
/-- Per-edge messages [700000, 128]. -/
abbrev Edges : Shape := ⟨2, ![700000, 128]⟩
/-- Per-edge weights as a column [700000, 1]. -/
abbrev EdgeCol : Shape := ⟨2, ![700000, 1]⟩
/-- A layer's bias as a row [1, 128]. -/
abbrev BiasRow : Shape := ⟨2, ![1, 128]⟩

/-- Row `n` of `x` times column `f` of `W`. -/
def linear (x : Nodes.Idx → EReal) (w : Weights.Idx → EReal) : Nodes.Idx → EReal := fun i =>
  ∑ k : Fin 128, x (ValueIdx.ix2 (n0 := 100000) (n1 := 128) ⟨(i 0).val, (i 0).isLt⟩ k)
    * w (ValueIdx.ix2 (n0 := 128) (n1 := 128) k ⟨(i 1).val, (i 1).isLt⟩)

/-- Every feature of edge `e`'s row times the edge's weight. -/
def scale (h : Edges.Idx → EReal) (c : EdgeCol.Idx → EReal) : Edges.Idx → EReal := fun i =>
  h i * c (ValueIdx.ix2 (n0 := 700000) (n1 := 1) ⟨(i 0).val, (i 0).isLt⟩ ⟨0, Nat.one_pos⟩)

/-- The feature's bias added, then the maximum with zero. -/
def biasRelu (a : Nodes.Idx → EReal) (b : BiasRow.Idx → EReal) : Nodes.Idx → EReal := fun i =>
  max (a i + b (ValueIdx.ix2 (n0 := 1) (n1 := 128) ⟨0, Nat.one_pos⟩ ⟨(i 1).val, (i 1).isLt⟩))
    (FloatOps.ofBits (F := Ideal) .f32 0x00000000#32)

end Cert.GcnLayer

end
-- ==== Proof.Linear0.lean ====
/-
  The first layer's matrix product as the kernel computes it: 20 grid points, each multiplying a block of 5000 rows of the
  node features by the whole [128,128] weight matrix and writing the block of 5000 rows of the result. Every element of the
  result is therefore the full row-by-column sum, and the 20 blocks tile the array: after the call the result array is
  `linear` of the two arrays the call was entered with.
-/
import proofs.«143396_j58600533786650_1_alg».proof.Proof.Gen.KernelIdeal.Frame
import proofs.«143396_j58600533786650_1_alg».proof.Proof.KernelBodies
import proofs.«143396_j58600533786650_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid of 20 points: point t takes rows 5000t … 5000t+4999 of the features
    and of the result, and the whole weight matrix. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `linear` of the two arrays as the call finds them: row 5000t+p of the result
    is row p of the point's block of features against the weights. -/
theorem flushed0 (c : Dev nD) (t : Fin cfg0.N) :
    (dat0 V c).flushed 2 t = ((cfg0.win 2).blk t).view.read (Elt Ideal) (GcnLayer.linear (V c main_arg1) (V c main_v35)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S128x128) zero_off]
  obtain ⟨e0, e1, e2, e3, e4, e5⟩ := blocks0 t
  funext j
  show k0_pay1 (iblk0 V c 0 t) (iblk0 V c 1 t) j = GcnLayer.linear (V c main_arg1) (V c main_v35) (((cfg0.win 2).blk t).view.emb j)
  refine (lin0_at _ _ j).trans ?_
  unfold GcnLayer.linear
  beta_reduce
  refine Finset.sum_congr rfl fun k _ => ?_
  refine congr (congrArg _ (congrArg (V c main_arg1) ?_)) (congrArg (V c main_v35) ?_)
  · funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v36).slice (win0_2.rect t)).set ↔ _
  rw [View.set_slice_whole, Rect.mem_set_unit]
  exact Iff.rfl

/-- The 20 blocks of 5000 rows cover the 100000 rows: row r is in block r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := blocks0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the call its result array is `linear` of the feature array and the weight array it was entered with. -/
theorem final0 (c : Dev nD) : (dat0 V c).arrAt 2 cfg0.N = GcnLayer.linear (V c main_arg1) (V c main_v35) :=
  (dat0 V c).arrAt_eq_of_cover 2 (GcnLayer.linear (V c main_arg1) (V c main_v35)) (fun t _ => flushed0 V c t) (cover0)

end Cert.KernelIdeal.Hand

end
-- ==== Proof.Scale1.lean ====
/-
  The first layer's edge messages as the kernel computes them: 175 grid points, each taking a block of 4000 gathered rows and
  the matching 4000 entries of the column of edge weights, and writing the rows times their weights. The 175 blocks tile
  the 700000 rows: after the call the result array is `scale` of the two arrays the call was entered with.
-/
import proofs.«143396_j58600533786650_1_alg».proof.Proof.Gen.KernelIdeal.Frame
import proofs.«143396_j58600533786650_1_alg».proof.Proof.KernelBodies
import proofs.«143396_j58600533786650_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid of 175 points: point t takes rows 4000t … 4000t+3999 of the gathered
    rows, of the column of weights and of the result. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of `scale` of the two arrays as the call finds them. -/
theorem flushed1 (c : Dev nD) (t : Fin cfg1.N) :
    (dat1 V c).flushed 2 t = ((cfg1.win 2).blk t).view.read (Elt Ideal) (GcnLayer.scale (V c main_v43) (V c main_v33)) := by
  show (cfg1.win 2).cut (grid1.coords t) ((dat1 V c).after 2 t) = _
  rw [after1_2]
  unfold out1_2
  rw [View.canon_unit_zero zero_off]
  simp only [View.ld_unit_zero (S := S4000x128) zero_off, View.ld_unit_zero (S := S4000x1) zero_off]
  obtain ⟨e0, e1, e2, e3, e4, e5⟩ := blocks1 t
  funext j
  show k1_pay1 (iblk1 V c 0 t) (iblk1 V c 1 t) j = GcnLayer.scale (V c main_v43) (V c main_v33) (((cfg1.win 2).blk t).view.emb j)
  refine (scale1_at _ _ j).trans ?_
  unfold GcnLayer.scale
  beta_reduce
  refine congr (congrArg _ (congrArg (V c main_v43) ?_)) (congrArg (V c main_v33) ?_)
  · funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 128 + 1 * (j 1).val = win1_2.index t (1 : Fin 2) * 128 + 1 * (j 1).val; omega
  · funext a; apply Fin.ext
    match a with
    | ⟨0, _⟩ => show win1_1.index t (0 : Fin 2) * 4000 + 1 * (j 0).val = win1_2.index t (0 : Fin 2) * 4000 + 1 * (j 0).val; omega
    | ⟨1, _⟩ => show win1_1.index t (1 : Fin 2) * 1 + 1 * 0 = 0; omega

/-- An index of the result array is in point t's block iff each coordinate is in the block's range on its axis. -/
theorem mem_blk1 (t : Fin cfg1.N) (i : S700000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v44).slice (win1_2.rect t)).set ↔ _
  rw [View.set_slice_whole, Rect.mem_set_unit]
  exact Iff.rfl

/-- The 175 blocks of 4000 rows cover the 700000 rows: row r is in block r / 4000. -/
theorem cover1 (i : S700000x128.Idx) : ∃ t : Fin cfg1.N, (cfg1.win 2).flush t = true ∧ i ∈ ((cfg1.win 2).blk t).view.set := by
  have hi0 : (i 0).val < 700000 := (i 0).isLt
  have hi1 : (i 1).val < 128 := (i 1).isLt
  have hN : cfg1.N = 175 := N_1
  let t : Fin cfg1.N := ⟨(i 0).val / 4000, by rw [hN]; omega⟩
  obtain ⟨e0, e1, e2, e3, e4, e5⟩ := blocks1 t
  have ht : t.val = (i 0).val / 4000 := rfl
  refine ⟨t, flush1_2 t, ?_⟩
  rw [mem_blk1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- After the call its result array is `scale` of the gathered rows and the column of weights it was entered with. -/
theorem final1 (c : Dev nD) : (dat1 V c).arrAt 2 cfg1.N = GcnLayer.scale (V c main_v43) (V c main_v33) :=
  (dat1 V c).arrAt_eq_of_cover 2 (GcnLayer.scale (V c main_v43) (V c main_v33)) (fun t _ => flushed1 V c t) (cover1)

end Cert.KernelIdeal.Hand

end
-- ==== Proof.BiasRelu2.lean ====
/-
  The first layer's bias and relu as the kernel computes them: 20 grid points, each taking a block of 5000 rows of the summed
  messages and the whole [1,128] bias row, and writing max(row + bias, 0). The 20 blocks tile the 100000 rows: after the
  call the result array is `biasRelu` of the two arrays the call was entered with.
-/
import proofs.«143396_j58600533786650_1_alg».proof.Proof.Gen.KernelIdeal.Frame
import proofs.«143396_j58600533786650_1_alg».proof.Proof.KernelBodies
import proofs.«143396_j58600533786650_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid of 20 points: point t takes rows 5000t … 5000t+4999 of the sums and of
    the result, and the whole bias row. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of `biasRelu` of the two arrays as the call finds them. -/
theorem flushed2 (c : Dev nD) (t : Fin cfg2.N) :
    (dat2 V c).flushed 2 t = ((cfg2.win 2).blk t).view.read (Elt Ideal) (GcnLayer.biasRelu (V c main_v47) (V c main_v50)) := by
  show (cfg2.win 2).cut (grid2.coords t) ((dat2 V c).after 2 t) = _
  rw [after2_2]
  unfold out2_2
  rw [View.canon_unit_zero zero_off]
  simp only [View.ld_unit_zero (S := S5000x128) zero_off, View.ld_unit_zero (S := S1x128) zero_off]
  obtain ⟨e0, e1, e2, e3, e4, e5⟩ := blocks2 t
  funext j
  refine (pay_biasRelu _ _ ⟨(j 0).val, (j 0).isLt⟩ ⟨(j 1).val, (j 1).isLt⟩).trans ?_
  unfold GcnLayer.biasRelu
  refine congrArg (max · _) ?_
  refine congr (congrArg _ (congrArg (V c main_v47) ?_)) (congrArg (V c main_v50) ?_)
  · funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  · funext a; apply Fin.ext
    match a with
    | ⟨0, _⟩ => show win2_1.index t (0 : Fin 2) * 1 + 1 * 0 = 0; omega
    | ⟨1, _⟩ => show win2_1.index t (1 : Fin 2) * 128 + 1 * (j 1).val = win2_2.index t (1 : Fin 2) * 128 + 1 * (j 1).val; omega

/-- An index of the result array is in point t's block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v51).slice (win2_2.rect t)).set ↔ _
  rw [View.set_slice_whole, Rect.mem_set_unit]
  exact Iff.rfl

/-- The 20 blocks of 5000 rows cover the 100000 rows: row r is in block r / 5000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨e0, e1, e2, e3, e4, e5⟩ := blocks2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the call its result array is `biasRelu` of the array of sums and the bias row it was entered with. -/
theorem final2 (c : Dev nD) : (dat2 V c).arrAt 2 cfg2.N = GcnLayer.biasRelu (V c main_v47) (V c main_v50) :=
  (dat2 V c).arrAt_eq_of_cover 2 (GcnLayer.biasRelu (V c main_v47) (V c main_v50)) (fun t _ => flushed2 V c t) (cover2)

end Cert.KernelIdeal.Hand

end
-- ==== Proof.Linear3.lean ====
/-
  The second layer's matrix product as the kernel computes it: 20 grid points, each multiplying a block of 5000 rows of the
  node features by the whole [128,128] weight matrix and writing the block of 5000 rows of the result. Every element of the
  result is therefore the full row-by-column sum, and the 20 blocks tile the array: after the call the result array is
  `linear` of the two arrays the call was entered with.
-/
import proofs.«143396_j58600533786650_1_alg».proof.Proof.Gen.KernelIdeal.Frame
import proofs.«143396_j58600533786650_1_alg».proof.Proof.KernelBodies
import proofs.«143396_j58600533786650_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid of 20 points: point t takes rows 5000t … 5000t+4999 of the features
    and of the result, and the whole weight matrix. -/
theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of `linear` of the two arrays as the call finds them: row 5000t+p of the result
    is row p of the point's block of features against the weights. -/
theorem flushed3 (c : Dev nD) (t : Fin cfg3.N) :
    (dat3 V c).flushed 2 t = ((cfg3.win 2).blk t).view.read (Elt Ideal) (GcnLayer.linear (V c main_v51) (V c main_v53)) := by
  show (cfg3.win 2).cut (grid3.coords t) ((dat3 V c).after 2 t) = _
  rw [after3_2]
  unfold out3_2
  rw [View.canon_unit_zero zero_off]
  simp only [View.ld_unit_zero (S := S5000x128) zero_off, View.ld_unit_zero (S := S128x128) zero_off]
  obtain ⟨e0, e1, e2, e3, e4, e5⟩ := blocks3 t
  funext j
  show k3_pay1 (iblk3 V c 0 t) (iblk3 V c 1 t) j = GcnLayer.linear (V c main_v51) (V c main_v53) (((cfg3.win 2).blk t).view.emb j)
  refine (lin3_at _ _ j).trans ?_
  unfold GcnLayer.linear
  beta_reduce
  refine Finset.sum_congr rfl fun k _ => ?_
  refine congr (congrArg _ (congrArg (V c main_v51) ?_)) (congrArg (V c main_v53) ?_)
  · funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  · funext a; apply Fin.ext
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega

/-- An index of the result array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v54).slice (win3_2.rect t)).set ↔ _
  rw [View.set_slice_whole, Rect.mem_set_unit]
  exact Iff.rfl

/-- The 20 blocks of 5000 rows cover the 100000 rows: row r is in block r / 5000. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨e0, e1, e2, e3, e4, e5⟩ := blocks3 t
  have ht : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the call its result array is `linear` of the feature array and the weight array it was entered with. -/
theorem final3 (c : Dev nD) : (dat3 V c).arrAt 2 cfg3.N = GcnLayer.linear (V c main_v51) (V c main_v53) :=
  (dat3 V c).arrAt_eq_of_cover 2 (GcnLayer.linear (V c main_v51) (V c main_v53)) (fun t _ => flushed3 V c t) (cover3)

end Cert.KernelIdeal.Hand

end
-- ==== Proof.Scale4.lean ====
/-
  The second layer's edge messages as the kernel computes them: 175 grid points, each taking a block of 4000 gathered rows and
  the matching 4000 entries of the column of edge weights, and writing the rows times their weights. The 175 blocks tile
  the 700000 rows: after the call the result array is `scale` of the two arrays the call was entered with.
-/
import proofs.«143396_j58600533786650_1_alg».proof.Proof.Gen.KernelIdeal.Frame
import proofs.«143396_j58600533786650_1_alg».proof.Proof.KernelBodies
import proofs.«143396_j58600533786650_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid of 175 points: point t takes rows 4000t … 4000t+3999 of the gathered
    rows, of the column of weights and of the result. -/
theorem blocks4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of `scale` of the two arrays as the call finds them. -/
theorem flushed4 (c : Dev nD) (t : Fin cfg4.N) :
    (dat4 V c).flushed 2 t = ((cfg4.win 2).blk t).view.read (Elt Ideal) (GcnLayer.scale (V c main_v61) (V c main_v33)) := by
  show (cfg4.win 2).cut (grid4.coords t) ((dat4 V c).after 2 t) = _
  rw [after4_2]
  unfold out4_2
  rw [View.canon_unit_zero zero_off]
  simp only [View.ld_unit_zero (S := S4000x128) zero_off, View.ld_unit_zero (S := S4000x1) zero_off]
  obtain ⟨e0, e1, e2, e3, e4, e5⟩ := blocks4 t
  funext j
  show k4_pay1 (iblk4 V c 0 t) (iblk4 V c 1 t) j = GcnLayer.scale (V c main_v61) (V c main_v33) (((cfg4.win 2).blk t).view.emb j)
  refine (scale4_at _ _ j).trans ?_
  unfold GcnLayer.scale
  beta_reduce
  refine congr (congrArg _ (congrArg (V c main_v61) ?_)) (congrArg (V c main_v33) ?_)
  · funext a; apply Fin.ext
    match a with
    | ⟨0, _⟩ => show win4_0.index t (0 : Fin 2) * 4000 + 1 * (j 0).val = win4_2.index t (0 : Fin 2) * 4000 + 1 * (j 0).val; omega
    | ⟨1, _⟩ => show win4_0.index t (1 : Fin 2) * 128 + 1 * (j 1).val = win4_2.index t (1 : Fin 2) * 128 + 1 * (j 1).val; omega
  · funext a; apply Fin.ext
    match a with
    | ⟨0, _⟩ => show win4_1.index t (0 : Fin 2) * 4000 + 1 * (j 0).val = win4_2.index t (0 : Fin 2) * 4000 + 1 * (j 0).val; omega
    | ⟨1, _⟩ => show win4_1.index t (1 : Fin 2) * 1 + 1 * 0 = 0; omega

/-- An index of the result array is in point t's block iff each coordinate is in the block's range on its axis. -/
theorem mem_blk4 (t : Fin cfg4.N) (i : S700000x128.Idx) :
    i ∈ ((cfg4.win 2).blk t).view.set ↔ ∀ a : Fin 2, win4_2.index t a * S4000x128.size a ≤ (i a).val ∧ (i a).val < win4_2.index t a * S4000x128.size a + S4000x128.size a := by
  show i ∈ ((View.whole main_v62).slice (win4_2.rect t)).set ↔ _
  rw [View.set_slice_whole, Rect.mem_set_unit]
  exact Iff.rfl

/-- The 175 blocks of 4000 rows cover the 700000 rows: row r is in block r / 4000. -/
theorem cover4 (i : S700000x128.Idx) : ∃ t : Fin cfg4.N, (cfg4.win 2).flush t = true ∧ i ∈ ((cfg4.win 2).blk t).view.set := by
  have hi0 : (i 0).val < 700000 := (i 0).isLt
  have hi1 : (i 1).val < 128 := (i 1).isLt
  have hN : cfg4.N = 175 := N_4
  let t : Fin cfg4.N := ⟨(i 0).val / 4000, by rw [hN]; omega⟩
  obtain ⟨e0, e1, e2, e3, e4, e5⟩ := blocks4 t
  have ht : t.val = (i 0).val / 4000 := rfl
  refine ⟨t, flush4_2 t, ?_⟩
  rw [mem_blk4]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 128 ≤ (i 1).val ∧ (i 1).val < win4_2.index t (1 : Fin 2) * 128 + 128; omega

/-- After the call its result array is `scale` of the gathered rows and the column of weights it was entered with. -/
theorem final4 (c : Dev nD) : (dat4 V c).arrAt 2 cfg4.N = GcnLayer.scale (V c main_v61) (V c main_v33) :=
  (dat4 V c).arrAt_eq_of_cover 2 (GcnLayer.scale (V c main_v61) (V c main_v33)) (fun t _ => flushed4 V c t) (cover4)

end Cert.KernelIdeal.Hand

end
-- ==== Proof.BiasRelu5.lean ====
/-
  The second layer's bias and relu as the kernel computes them: 20 grid points, each taking a block of 5000 rows of the summed
  messages and the whole [1,128] bias row, and writing max(row + bias, 0). The 20 blocks tile the 100000 rows: after the
  call the result array is `biasRelu` of the two arrays the call was entered with.
-/
import proofs.«143396_j58600533786650_1_alg».proof.Proof.Gen.KernelIdeal.Frame
import proofs.«143396_j58600533786650_1_alg».proof.Proof.KernelBodies
import proofs.«143396_j58600533786650_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid of 20 points: point t takes rows 5000t … 5000t+4999 of the sums and of
    the result, and the whole bias row. -/
theorem blocks5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of `biasRelu` of the two arrays as the call finds them. -/
theorem flushed5 (c : Dev nD) (t : Fin cfg5.N) :
    (dat5 V c).flushed 2 t = ((cfg5.win 2).blk t).view.read (Elt Ideal) (GcnLayer.biasRelu (V c main_v65) (V c main_v68)) := by
  show (cfg5.win 2).cut (grid5.coords t) ((dat5 V c).after 2 t) = _
  rw [after5_2]
  unfold out5_2
  rw [View.canon_unit_zero zero_off]
  simp only [View.ld_unit_zero (S := S5000x128) zero_off, View.ld_unit_zero (S := S1x128) zero_off]
  obtain ⟨e0, e1, e2, e3, e4, e5⟩ := blocks5 t
  funext j
  rw [pay5_eq]
  refine (pay_biasRelu _ _ ⟨(j 0).val, (j 0).isLt⟩ ⟨(j 1).val, (j 1).isLt⟩).trans ?_
  unfold GcnLayer.biasRelu
  refine congrArg (max · _) ?_
  refine congr (congrArg _ (congrArg (V c main_v65) ?_)) (congrArg (V c main_v68) ?_)
  · funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  · funext a; apply Fin.ext
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega

/-- An index of the result array is in point t's block iff each coordinate is in the block's range on its axis. -/
theorem mem_blk5 (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v69).slice (win5_2.rect t)).set ↔ _
  rw [View.set_slice_whole, Rect.mem_set_unit]
  exact Iff.rfl

/-- The 20 blocks of 5000 rows cover the 100000 rows: row r is in block r / 5000. -/
theorem cover5 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  obtain ⟨e0, e1, e2, e3, e4, e5⟩ := blocks5 t
  have ht : t.val = (i 0).val / 5000 := rfl
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the call its result array is `biasRelu` of the array of sums and the bias row it was entered with. -/
theorem final5 (c : Dev nD) : (dat5 V c).arrAt 2 cfg5.N = GcnLayer.biasRelu (V c main_v65) (V c main_v68) :=
  (dat5 V c).arrAt_eq_of_cover 2 (GcnLayer.biasRelu (V c main_v65) (V c main_v68)) (fun t _ => flushed5 V c t) (cover5)

end Cert.KernelIdeal.Hand

end
-- ==== Proof.Linear6.lean ====
/-
  The third layer's matrix product as the kernel computes it: 20 grid points, each multiplying a block of 5000 rows of the
  node features by the whole [128,128] weight matrix and writing the block of 5000 rows of the result. Every element of the
  result is therefore the full row-by-column sum, and the 20 blocks tile the array: after the call the result array is
  `linear` of the two arrays the call was entered with.
-/
import proofs.«143396_j58600533786650_1_alg».proof.Proof.Gen.KernelIdeal.Frame
import proofs.«143396_j58600533786650_1_alg».proof.Proof.KernelBodies
import proofs.«143396_j58600533786650_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid of 20 points: point t takes rows 5000t … 5000t+4999 of the features
    and of the result, and the whole weight matrix. -/
theorem blocks6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of `linear` of the two arrays as the call finds them: row 5000t+p of the result
    is row p of the point's block of features against the weights. -/
theorem flushed6 (c : Dev nD) (t : Fin cfg6.N) :
    (dat6 V c).flushed 2 t = ((cfg6.win 2).blk t).view.read (Elt Ideal) (GcnLayer.linear (V c main_v69) (V c main_v71)) := by
  show (cfg6.win 2).cut (grid6.coords t) ((dat6 V c).after 2 t) = _
  rw [after6_2]
  unfold out6_2
  rw [View.canon_unit_zero zero_off]
  simp only [View.ld_unit_zero (S := S5000x128) zero_off, View.ld_unit_zero (S := S128x128) zero_off]
  obtain ⟨e0, e1, e2, e3, e4, e5⟩ := blocks6 t
  funext j
  show k6_pay1 (iblk6 V c 0 t) (iblk6 V c 1 t) j = GcnLayer.linear (V c main_v69) (V c main_v71) (((cfg6.win 2).blk t).view.emb j)
  refine (lin6_at _ _ j).trans ?_
  unfold GcnLayer.linear
  beta_reduce
  refine Finset.sum_congr rfl fun k _ => ?_
  refine congr (congrArg _ (congrArg (V c main_v69) ?_)) (congrArg (V c main_v71) ?_)
  · funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  · funext a; apply Fin.ext
    match a with
    | ⟨0, _⟩ => show win6_1.index t (0 : Fin 2) * 128 + 1 * k.val = k.val; omega
    | ⟨1, _⟩ => show win6_1.index t (1 : Fin 2) * 128 + 1 * (j 1).val = win6_2.index t (1 : Fin 2) * 128 + 1 * (j 1).val; omega

/-- An index of the result array is in point t's block iff each coordinate is in the block's range on its axis. -/
theorem mem_blk6 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v72).slice (win6_2.rect t)).set ↔ _
  rw [View.set_slice_whole, Rect.mem_set_unit]
  exact Iff.rfl

/-- The 20 blocks of 5000 rows cover the 100000 rows: row r is in block r / 5000. -/
theorem cover6 (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  let t : Fin cfg6.N := ⟨(i 0).val / 5000, by rw [hN]; omega⟩
  obtain ⟨e0, e1, e2, e3, e4, e5⟩ := blocks6 t
  have ht : t.val = (i 0).val / 5000 := rfl
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- After the call its result array is `linear` of the feature array and the weight array it was entered with. -/
theorem final6 (c : Dev nD) : (dat6 V c).arrAt 2 cfg6.N = GcnLayer.linear (V c main_v69) (V c main_v71) :=
  (dat6 V c).arrAt_eq_of_cover 2 (GcnLayer.linear (V c main_v69) (V c main_v71)) (fun t _ => flushed6 V c t) (cover6)

end Cert.KernelIdeal.Hand

end
-- ==== Proof.Scale7.lean ====
/-
  The third layer's edge messages as the kernel computes them: 175 grid points, each taking a block of 4000 gathered rows and
  the matching 4000 entries of the column of edge weights, and writing the rows times their weights. The 175 blocks tile
  the 700000 rows: after the call the result array is `scale` of the two arrays the call was entered with.
-/
import proofs.«143396_j58600533786650_1_alg».proof.Proof.Gen.KernelIdeal.Frame
import proofs.«143396_j58600533786650_1_alg».proof.Proof.KernelBodies
import proofs.«143396_j58600533786650_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid of 175 points: point t takes rows 4000t … 4000t+3999 of the gathered
    rows, of the column of weights and of the result. -/
theorem blocks7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point t writes back is block t of `scale` of the two arrays as the call finds them. -/
theorem flushed7 (c : Dev nD) (t : Fin cfg7.N) :
    (dat7 V c).flushed 2 t = ((cfg7.win 2).blk t).view.read (Elt Ideal) (GcnLayer.scale (V c main_v79) (V c main_v33)) := by
  show (cfg7.win 2).cut (grid7.coords t) ((dat7 V c).after 2 t) = _
  rw [after7_2]
  unfold out7_2
  rw [View.canon_unit_zero zero_off]
  simp only [View.ld_unit_zero (S := S4000x128) zero_off, View.ld_unit_zero (S := S4000x1) zero_off]
  obtain ⟨e0, e1, e2, e3, e4, e5⟩ := blocks7 t
  funext j
  show k7_pay1 (iblk7 V c 0 t) (iblk7 V c 1 t) j = GcnLayer.scale (V c main_v79) (V c main_v33) (((cfg7.win 2).blk t).view.emb j)
  refine (scale7_at _ _ j).trans ?_
  unfold GcnLayer.scale
  beta_reduce
  refine congr (congrArg _ (congrArg (V c main_v79) ?_)) (congrArg (V c main_v33) ?_)
  · funext a; apply Fin.ext
    match a with
    | ⟨0, _⟩ => show win7_0.index t (0 : Fin 2) * 4000 + 1 * (j 0).val = win7_2.index t (0 : Fin 2) * 4000 + 1 * (j 0).val; omega
    | ⟨1, _⟩ => show win7_0.index t (1 : Fin 2) * 128 + 1 * (j 1).val = win7_2.index t (1 : Fin 2) * 128 + 1 * (j 1).val; omega
  · funext a; apply Fin.ext
    match a with
    | ⟨0, _⟩ => show win7_1.index t (0 : Fin 2) * 4000 + 1 * (j 0).val = win7_2.index t (0 : Fin 2) * 4000 + 1 * (j 0).val; omega
    | ⟨1, _⟩ => show win7_1.index t (1 : Fin 2) * 1 + 1 * 0 = 0; omega

/-- An index of the result array is in point t's block iff each coordinate is in the block's range on its axis. -/
theorem mem_blk7 (t : Fin cfg7.N) (i : S700000x128.Idx) :
    i ∈ ((cfg7.win 2).blk t).view.set ↔ ∀ a : Fin 2, win7_2.index t a * S4000x128.size a ≤ (i a).val ∧ (i a).val < win7_2.index t a * S4000x128.size a + S4000x128.size a := by
  show i ∈ ((View.whole main_v80).slice (win7_2.rect t)).set ↔ _
  rw [View.set_slice_whole, Rect.mem_set_unit]
  exact Iff.rfl

/-- The 175 blocks of 4000 rows cover the 700000 rows: row r is in block r / 4000. -/
theorem cover7 (i : S700000x128.Idx) : ∃ t : Fin cfg7.N, (cfg7.win 2).flush t = true ∧ i ∈ ((cfg7.win 2).blk t).view.set := by
  have hi0 : (i 0).val < 700000 := (i 0).isLt
  have hi1 : (i 1).val < 128 := (i 1).isLt
  have hN : cfg7.N = 175 := N_7
  let t : Fin cfg7.N := ⟨(i 0).val / 4000, by rw [hN]; omega⟩
  obtain ⟨e0, e1, e2, e3, e4, e5⟩ := blocks7 t
  have ht : t.val = (i 0).val / 4000 := rfl
  refine ⟨t, flush7_2 t, ?_⟩
  rw [mem_blk7]
  intro a
  match a with
  | ⟨0, _⟩ => show win7_2.index t (0 : Fin 2) * 4000 ≤ (i 0).val ∧ (i 0).val < win7_2.index t (0 : Fin 2) * 4000 + 4000; omega
  | ⟨1, _⟩ => show win7_2.index t (1 : Fin 2) * 128 ≤ (i 1).val ∧ (i 1).val < win7_2.index t (1 : Fin 2) * 128 + 128; omega

/-- After the call its result array is `scale` of the gathered rows and the column of weights it was entered with. -/
theorem final7 (c : Dev nD) : (dat7 V c).arrAt 2 cfg7.N = GcnLayer.scale (V c main_v79) (V c main_v33) :=
  (dat7 V c).arrAt_eq_of_cover 2 (GcnLayer.scale (V c main_v79) (V c main_v33)) (fun t _ => flushed7 V c t) (cover7)

end Cert.KernelIdeal.Hand

end
-- ==== Proof.BiasRelu8.lean ====
/-
  The third layer's bias and relu as the kernel computes them: 20 grid points, each taking a block of 5000 rows of the summed
  messages and the whole [1,128] bias row, and writing max(row + bias, 0). The 20 blocks tile the 100000 rows: after the
  call the result array is `biasRelu` of the two arrays the call was entered with.
-/
import proofs.«143396_j58600533786650_1_alg».proof.Proof.Gen.KernelIdeal.Frame
import proofs.«143396_j58600533786650_1_alg».proof.Proof.KernelBodies
import proofs.«143396_j58600533786650_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid of 20 points: point t takes rows 5000t … 5000t+4999 of the sums and of
    the result, and the whole bias row. -/
theorem blocks8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point t writes back is block t of `biasRelu` of the two arrays as the call finds them. -/
theorem flushed8 (c : Dev nD) (t : Fin cfg8.N) :
    (dat8 V c).flushed 2 t = ((cfg8.win 2).blk t).view.read (Elt Ideal) (GcnLayer.biasRelu (V c main_v83) (V c main_v86)) := by
  show (cfg8.win 2).cut (grid8.coords t) ((dat8 V c).after 2 t) = _
  rw [after8_2]
  unfold out8_2
  rw [View.canon_unit_zero zero_off]
  simp only [View.ld_unit_zero (S := S5000x128) zero_off, View.ld_unit_zero (S := S1x128) zero_off]
  obtain ⟨e0, e1, e2, e3, e4, e5⟩ := blocks8 t
  funext j
  rw [pay8_eq]
  refine (pay_biasRelu _ _ ⟨(j 0).val, (j 0).isLt⟩ ⟨(j 1).val, (j 1).isLt⟩).trans ?_
  unfold GcnLayer.biasRelu
  refine congrArg (max · _) ?_
  refine congr (congrArg _ (congrArg (V c main_v83) ?_)) (congrArg (V c main_v86) ?_)
  · funext a; apply Fin.ext
    match a with
    | ⟨0, _⟩ => show win8_0.index t (0 : Fin 2) * 5000 + 1 * (j 0).val = win8_2.index t (0 : Fin 2) * 5000 + 1 * (j 0).val; omega
    | ⟨1, _⟩ => show win8_0.index t (1 : Fin 2) * 128 + 1 * (j 1).val = win8_2.index t (1 : Fin 2) * 128 + 1 * (j 1).val; omega
  · funext a; apply Fin.ext
    match a with
    | ⟨0, _⟩ => show win8_1.index t (0 : Fin 2) * 1 + 1 * 0 = 0; omega
    | ⟨1, _⟩ => show win8_1.index t (1 : Fin 2) * 128 + 1 * (j 1).val = win8_2.index t (1 : Fin 2) * 128 + 1 * (j 1).val; omega

/-- An index of the result array is in point t's block iff each coordinate is in the block's range on its axis. -/
theorem mem_blk8 (t : Fin cfg8.N) (i : S100000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v87).slice (win8_2.rect t)).set ↔ _
  rw [View.set_slice_whole, Rect.mem_set_unit]
  exact Iff.rfl

/-- The 20 blocks of 5000 rows cover the 100000 rows: row r is in block r / 5000. -/
theorem cover8 (i : S100000x128.Idx) : ∃ t : Fin cfg8.N, (cfg8.win 2).flush t = true ∧ i ∈ ((cfg8.win 2).blk t).view.set := by
  have hi0 : (i 0).val < 100000 := (i 0).isLt
  have hi1 : (i 1).val < 128 := (i 1).isLt
  have hN : cfg8.N = 20 := N_8
  let t : Fin cfg8.N := ⟨(i 0).val / 5000, by rw [hN]; omega⟩
  obtain ⟨e0, e1, e2, e3, e4, e5⟩ := blocks8 t
  have ht : t.val = (i 0).val / 5000 := rfl
  refine ⟨t, flush8_2 t, ?_⟩
  rw [mem_blk8]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 128 ≤ (i 1).val ∧ (i 1).val < win8_2.index t (1 : Fin 2) * 128 + 128; omega

/-- After the call its result array is `biasRelu` of the array of sums and the bias row it was entered with. -/
theorem final8 (c : Dev nD) : (dat8 V c).arrAt 2 cfg8.N = GcnLayer.biasRelu (V c main_v83) (V c main_v86) :=
  (dat8 V c).arrAt_eq_of_cover 2 (GcnLayer.biasRelu (V c main_v83) (V c main_v86)) (fun t _ => flushed8 V c t) (cover8)

end Cert.KernelIdeal.Hand

end
-- ==== Proof.RefStages.lean ====
/-
  The reference program's result, in stages, and each stage that does arithmetic as the layer's whole-array function.

  From the edge list `e` (two rows of 600000 node numbers) the program forms the sources and the destinations of the
  700000 edges (the given ones, then one self-loop per node), the number of edges into each node, its inverse square root
  where that number is positive and zero elsewhere, and each edge's weight: the product of that quantity at its two ends.
  A layer then multiplies the node features by the layer's weights, takes each edge's source row, scales it by the edge's
  weight, adds it into the edge's destination row, adds the bias and takes the maximum with zero. Three layers.
  `gcnOut` is that as one term; it is the term the program's run ends with (`res_eq`), and with the arithmetic stages
  read index by index it is three times `biasRelu ∘ summed ∘ scale ∘ gathered ∘ linear` (`layer_eq`).
-/
import proofs.«143396_j58600533786650_1_alg».proof.Proof.RefRunPatched
import proofs.«143396_j58600533786650_1_alg».proof.Proof.Spec
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Idealize.ShloMosaic Idealize.ShloMosaic.TcCoe Idealize.ShloMosaic.ValueIdx Idealize.SL.Sem

/-! ## The stages -/

/-- The edges' sources: row 0 of the edge list, then every node once. -/
def srcs (e : Vec Ideal S2x600000 .i32) : Vec Ideal S700000 .i32 :=
  concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0
/-- The edges' destinations: row 1 of the edge list, then every node once. -/
def dsts (e : Vec Ideal S2x600000 .i32) : Vec Ideal S700000 .i32 :=
  concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0
/-- Node numbers as the gather reads them: a negative one counted from the end, as a column. -/
def wrapIdx (v : Vec Ideal S700000 .i32) : Vec Ideal S700000x1 .i32 :=
  broadcastInDim S700000x1 ![0] bcast_S700000_S700000x1_0 (select (cmpi .slt v (broadcastInDim S700000 ![] bcast_S_S700000 (constantI S_ 32 0#32))) (addi v (broadcastInDim S700000 ![] bcast_S_S700000 (constantI S_ 32 100000#32))) v)
/-- The number of edges into each node. -/
def degree (e : Vec Ideal S2x600000 .i32) : FVec Ideal S100000 .f32 :=
  Host.scatterAdd scatter_S100000_S700000x1_S700000_n_0_0_1 (broadcastInDim S100000 ![] bcast_S_S100000 (constant S_ .f32 0x00000000#32)) (broadcastInDim S700000x1 ![0] bcast_S700000_S700000x1_0 (dsts e)) (broadcastInDim S700000 ![] bcast_S_S700000 (constant S_ .f32 0x3F800000#32))
/-- Its inverse square root where it is positive, zero elsewhere. -/
def invSqrtDeg (e : Vec Ideal S2x600000 .i32) : FVec Ideal S100000 .f32 :=
  select (cmpf (F := Ideal) .ogt (degree e) (broadcastInDim S100000 ![] bcast_S_S100000 (constant S_ .f32 0x00000000#32))) (Host.rsqrt (select (cmpf (F := Ideal) .ogt (degree e) (broadcastInDim S100000 ![] bcast_S_S100000 (constant S_ .f32 0x00000000#32))) (degree e) (broadcastInDim S100000 ![] bcast_S_S100000 (id (constant S_ .f32 0x3F800000#32))))) (broadcastInDim S100000 ![] bcast_S_S100000 (id (constant S_ .f32 0x00000000#32)))
/-- An edge's weight: that quantity at its source times that quantity at its destination. -/
def edgeWeight (e : Vec Ideal S2x600000 .i32) : FVec Ideal S700000 .f32 :=
  mulf (Host.gather gather_S100000_S700000x1_S700000_n_0_n_n_0_1_1 (invSqrtDeg e) (wrapIdx (srcs e))) (Host.gather gather_S100000_S700000x1_S700000_n_0_n_n_0_1_1 (invSqrtDeg e) (wrapIdx (dsts e)))
/-- The weights as a column. -/
def edgeCol (e : Vec Ideal S2x600000 .i32) : FVec Ideal S700000x1 .f32 :=
  broadcastInDim S700000x1 ![0] bcast_S700000_S700000x1_0 (edgeWeight e)
/-- Each edge's source row of `h`. -/
def gathered (e : Vec Ideal S2x600000 .i32) (h : FVec Ideal S100000x128 .f32) : FVec Ideal S700000x128 .f32 :=
  Host.gather gather_S100000x128_S700000x1_S700000x128_1_0_n_n_0_1_1128 h (wrapIdx (srcs e))
/-- The edges' rows added into their destinations' rows, from zero. -/
def summed (e : Vec Ideal S2x600000 .i32) (msg : FVec Ideal S700000x128 .f32) : FVec Ideal S100000x128 .f32 :=
  Host.scatterAdd scatter_S100000x128_S700000x1_S700000x128_1_0_0_1 (broadcastInDim S100000x128 ![] bcast_S_S100000x128 (constant S_ .f32 0x00000000#32)) (broadcastInDim S700000x1 ![0] bcast_S700000_S700000x1_0 (dsts e)) msg
/-- A bias vector as a row. -/
def biasRow (b : FVec Ideal S128 .f32) : FVec Ideal S1x128 .f32 :=
  broadcastInDim S1x128 ![1] bcast_S128_S1x128_1 b
/-- Layer `l`'s weights and bias out of the stacked arguments. -/
def weight0 (W : FVec Ideal S3x128x128 .f32) : FVec Ideal S128x128 .f32 :=
  shapeCast _ (extractStridedSlice S1x128x128 ![0, 0, 0] W slices_S3x128x128_S1x128x128_0_0_0) shapeCasts_S1x128x128_S128x128
def weight1 (W : FVec Ideal S3x128x128 .f32) : FVec Ideal S128x128 .f32 :=
  shapeCast _ (extractStridedSlice S1x128x128 ![1, 0, 0] W slices_S3x128x128_S1x128x128_1_0_0) shapeCasts_S1x128x128_S128x128
def weight2 (W : FVec Ideal S3x128x128 .f32) : FVec Ideal S128x128 .f32 :=
  shapeCast _ (extractStridedSlice S1x128x128 ![2, 0, 0] W slices_S3x128x128_S1x128x128_2_0_0) shapeCasts_S1x128x128_S128x128
def bias0 (B : FVec Ideal S3x128 .f32) : FVec Ideal S128 .f32 :=
  shapeCast _ (extractStridedSlice S1x128 ![0, 0] B slices_S3x128_S1x128_0_0) shapeCasts_S1x128_S128
def bias1 (B : FVec Ideal S3x128 .f32) : FVec Ideal S128 .f32 :=
  shapeCast _ (extractStridedSlice S1x128 ![1, 0] B slices_S3x128_S1x128_1_0) shapeCasts_S1x128_S128
def bias2 (B : FVec Ideal S3x128 .f32) : FVec Ideal S128 .f32 :=
  shapeCast _ (extractStridedSlice S1x128 ![2, 0] B slices_S3x128_S1x128_2_0) shapeCasts_S1x128_S128

/-- One layer, as the reference program's operations. -/
def layer (e : Vec Ideal S2x600000 .i32) (x : FVec Ideal S100000x128 .f32) (w : FVec Ideal S128x128 .f32) (b : FVec Ideal S128 .f32) :
    FVec Ideal S100000x128 .f32 :=
  maximumf (addf (summed e (mulf (gathered e (Host.dotGeneral dot_S100000x128_S128x128_S100000x128_1_0_0_1_n_n none x w)) (broadcastInDim S700000x128 ![0, 1] bcast_S700000x1_S700000x128_0_1 (edgeCol e)))) (broadcastInDim S100000x128 ![0, 1] bcast_S1x128_S100000x128_0_1 (biasRow b))) (broadcastInDim S100000x128 ![] bcast_S_S100000x128 (constant S_ .f32 0x00000000#32))

/-- The three layers. -/
def gcnOut (e : Vec Ideal S2x600000 .i32) (x : FVec Ideal S100000x128 .f32) (W : FVec Ideal S3x128x128 .f32) (B : FVec Ideal S3x128 .f32) :
    FVec Ideal S100000x128 .f32 :=
  layer e (layer e (layer e x (weight0 W) (bias0 B)) (weight1 W) (bias1 B)) (weight2 W) (bias2 B)

/-- The term the reference program's run ends with is `gcnOut` of its arguments. -/
theorem res_eq (m : (ℓ : Loc nD τ sig) → Buf (Elt Ideal) ℓ) (c : Dev nD) :
    Cert.ReferenceIdeal.ValueP.res_main_v98 (F := Ideal) m c
      = gcnOut (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.ValueP.res_main_v98
  rfl

/-! ## The arithmetic stages, index by index -/

theorem lhs_row (i : S100000x128.Idx) (u : dot_S100000x128_S128x128_S100000x128_1_0_0_1_n_n.contr.Idx) : (dot_S100000x128_S128x128_S100000x128_1_0_0_1_n_n.lhsIdx i u 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_contr (i : S100000x128.Idx) (u : dot_S100000x128_S128x128_S100000x128_1_0_0_1_n_n.contr.Idx) : (dot_S100000x128_S128x128_S100000x128_1_0_0_1_n_n.lhsIdx i u 1).val = (u ⟨0, by decide⟩).val :=
  dot_S100000x128_S128x128_S100000x128_1_0_0_1_n_n.lhsIdx_val_of_single rfl i u
theorem rhs_contr (i : S100000x128.Idx) (u : dot_S100000x128_S128x128_S100000x128_1_0_0_1_n_n.contr.Idx) : (dot_S100000x128_S128x128_S100000x128_1_0_0_1_n_n.rhsIdx i u 0).val = (u ⟨0, by decide⟩).val :=
  dot_S100000x128_S128x128_S100000x128_1_0_0_1_n_n.rhsIdx_val_of_single rfl i u
theorem rhs_col (i : S100000x128.Idx) (u : dot_S100000x128_S128x128_S100000x128_1_0_0_1_n_n.contr.Idx) : (dot_S100000x128_S128x128_S100000x128_1_0_0_1_n_n.rhsIdx i u 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's matrix product is `linear`. -/
theorem dot_eq_linear (x : FVec Ideal S100000x128 .f32) (w : FVec Ideal S128x128 .f32) :
    Host.dotGeneral dot_S100000x128_S128x128_S100000x128_1_0_0_1_n_n none x w = GcnLayer.linear x w := by
  funext i
  simp only [Host.dotGeneral]
  rw [Ideal.dotGeneral_apply, ← Equiv.sum_comp (contrEquiv1 dot_S100000x128_S128x128_S100000x128_1_0_0_1_n_n 128 rfl rfl).symm]
  unfold GcnLayer.linear
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx i ((contrEquiv1 dot_S100000x128_S128x128_S100000x128_1_0_0_1_n_n 128 rfl rfl).symm k) = ix2 (n0 := 100000) (n1 := 128) ⟨(i 0).val, (i 0).isLt⟩ k := funext fun a => Fin.ext (by
    match a with
    | ⟨0, _⟩ => exact lhs_row _ _
    | ⟨1, _⟩ => exact (lhs_contr _ _).trans hk)
  have er : dot_S100000x128_S128x128_S100000x128_1_0_0_1_n_n.rhsIdx i ((contrEquiv1 dot_S100000x128_S128x128_S100000x128_1_0_0_1_n_n 128 rfl rfl).symm k) = ix2 (n0 := 128) (n1 := 128) k ⟨(i 1).val, (i 1).isLt⟩ := funext fun a => Fin.ext (by
    match a with
    | ⟨0, _⟩ => exact (rhs_contr _ _).trans hk
    | ⟨1, _⟩ => exact rhs_col _ _)
  rw [el, er]

/-- The host's product with the column spread over the lanes is `scale`. -/
theorem mul_eq_scale (h : FVec Ideal S700000x128 .f32) (col : FVec Ideal S700000x1 .f32) :
    mulf h (broadcastInDim S700000x128 ![0, 1] bcast_S700000x1_S700000x128_0_1 col) = GcnLayer.scale h col := by
  funext i
  show h i * (broadcastInDim S700000x128 ![0, 1] bcast_S700000x1_S700000x128_0_1 col) i = h i * col _
  refine congrArg (h i * ·) ?_
  exact broadcastInDim_apply _ bcast_S700000x1_S700000x128_0_1 col i _ (fun a => match a with
    | ⟨0, _⟩ => by show (i 0).val = if (700000 : Nat) = 1 then 0 else (i 0).val; rw [if_neg (by decide)]
    | ⟨1, _⟩ => by show (0 : Nat) = if (1 : Nat) = 1 then 0 else (i 1).val; rw [if_pos rfl])

/-- The host's sum with the row spread over the nodes, then its maximum with zero, is `biasRelu`. -/
theorem relu_eq (a : FVec Ideal S100000x128 .f32) (row : FVec Ideal S1x128 .f32) :
    maximumf (addf a (broadcastInDim S100000x128 ![0, 1] bcast_S1x128_S100000x128_0_1 row)) (broadcastInDim S100000x128 ![] bcast_S_S100000x128 (constant (F := Ideal) S_ .f32 0x00000000#32))
      = GcnLayer.biasRelu a row := by
  funext i
  show max (a i + (broadcastInDim S100000x128 ![0, 1] bcast_S1x128_S100000x128_0_1 row) i) ((broadcastInDim S100000x128 ![] bcast_S_S100000x128 (constant (F := Ideal) S_ .f32 0x00000000#32)) i) = max (a i + row _) _
  have h1 : (broadcastInDim S100000x128 ![0, 1] bcast_S1x128_S100000x128_0_1 row) i = row (ix2 (n0 := 1) (n1 := 128) ⟨0, Nat.one_pos⟩ ⟨(i 1).val, (i 1).isLt⟩) :=
    broadcastInDim_apply _ bcast_S1x128_S100000x128_0_1 row i _ (fun a => match a with
      | ⟨0, _⟩ => by show (0 : Nat) = if (1 : Nat) = 1 then 0 else (i 0).val; rw [if_pos rfl]
      | ⟨1, _⟩ => by show (i 1).val = if (128 : Nat) = 1 then 0 else (i 1).val; rw [if_neg (by decide)])
  have h2 : (broadcastInDim S100000x128 ![] bcast_S_S100000x128 (constant (F := Ideal) S_ .f32 0x00000000#32)) i = FloatOps.ofBits (F := Ideal) .f32 0x00000000#32 :=
    broadcastInDim_apply _ bcast_S_S100000x128 (constant (F := Ideal) S_ .f32 0x00000000#32) i ix0 (fun a => a.elim0)
  rw [h1, h2]

/-- One layer of the reference is the three whole-array functions around its gather and its scatter. -/
theorem layer_eq (e : Vec Ideal S2x600000 .i32) (x : FVec Ideal S100000x128 .f32) (w : FVec Ideal S128x128 .f32) (b : FVec Ideal S128 .f32) :
    layer e x w b = GcnLayer.biasRelu (summed e (GcnLayer.scale (gathered e (GcnLayer.linear x w)) (edgeCol e))) (biasRow b) := by
  unfold layer
  rw [dot_eq_linear, mul_eq_scale, relu_eq]

end Cert.ReferenceIdeal.Stages

end
-- ==== Proof.HostStretches.lean ====
/-
  The host operations between the kernel calls, read from ANY contents `W` the stretch is entered with.

  Five buffers are written before the first kernel call and never again: the edges' sources and destinations, the column of
  edge weights, and the two stacked arguments (weights, biases); `Live` says a valuation holds them. Every stretch keeps
  `Live`; the stretch before an edge-scaling call gathers the source rows of the array the matmul call wrote; the stretch
  before a bias call adds the scaled rows into their destinations and lays the layer's bias out as a row; the stretch before
  a later matmul call takes the layer's weights out of the stack. Each is the reference's stage of the same name, because
  it is the same host operation of the same operands. The kernel lays the edge weights out as a column, and a bias as
  a row, by a reshape where the reference uses a broadcast along a new unit axis: the same array (`col_reshape`, `row_reshape`).
-/
import proofs.«143396_j58600533786650_1_alg».proof.Proof.Gen.KernelIdeal.Launch
import proofs.«143396_j58600533786650_1_alg».proof.Proof.RefStages
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.StableHlo

/-- The results of the operations that build the edges' ends, where they stand inside a concatenation's operand list:
    each operation's result at its own buffer is its function's value, at another buffer what was there. -/
macro "finish_results" : tactic =>
  `(tactic| repeat (first
      | rw [StableHlo.nullary_result] | rw [StableHlo.unary_result] | rw [StableHlo.binary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)))

/-! ## A vector as a column, a vector as a row -/

/-- A length-700000 vector reshaped to a [700000,1] column is the vector broadcast along a new last axis. -/
theorem col_reshape (n : FVec Ideal S700000 .f32) (h : S700000.ShapeCasts S700000x1) (hb : S700000.BroadcastsInDim S700000x1 ![0]) :
    shapeCast S700000x1 n h = broadcastInDim S700000x1 ![0] hb n := by
  funext i
  have hi1 : (i 1).val < 1 := (i 1).isLt
  refine (shapeCast_apply n h i (ix1 (n := 700000) ⟨(i 0).val, (i 0).isLt⟩) ?_).trans
    (broadcastInDim_apply _ hb n i (ix1 (n := 700000) ⟨(i 0).val, (i 0).isLt⟩) (fun a => match a with
      | ⟨0, _⟩ => by show (i 0).val = if (700000 : Nat) = 1 then 0 else (i 0).val; rw [if_neg (by decide)])).symm
  rewrite [Shape.rowMajor_val_one, Shape.rowMajor_val_two]
  show (i 0).val = (i 0).val * 1 + (i 1).val
  omega

/-- A length-128 vector reshaped to a [1,128] row is the vector broadcast along a new first axis. -/
theorem row_reshape (v : FVec Ideal S128 .f32) (h : S128.ShapeCasts S1x128) (hb : S128.BroadcastsInDim S1x128 ![1]) :
    shapeCast S1x128 v h = broadcastInDim S1x128 ![1] hb v := by
  funext i
  have hi0 : (i 0).val < 1 := (i 0).isLt
  refine (shapeCast_apply v h i (ix1 (n := 128) ⟨(i 1).val, (i 1).isLt⟩) ?_).trans
    (broadcastInDim_apply _ hb v i (ix1 (n := 128) ⟨(i 1).val, (i 1).isLt⟩) (fun a => match a with
      | ⟨0, _⟩ => by show (i 1).val = if (128 : Nat) = 1 then 0 else (i 1).val; rw [if_neg (by decide)])).symm
  rewrite [Shape.rowMajor_val_one, Shape.rowMajor_val_two]
  show (i 1).val = (i 0).val * 128 + (i 1).val
  omega

/-! ## What every stretch keeps -/

section

variable (E : Vec Ideal S2x600000 .i32) (Wt : FVec Ideal S3x128x128 .f32) (B : FVec Ideal S3x128 .f32)

/-- The contents `W` hold the edges' ends, the column of edge weights and the two stacked arguments. -/
structure Live (W : Valuation τ sig (Elt Ideal)) : Prop where
  src : W (Proc.devRef .tc main_v3) = Cert.ReferenceIdeal.Stages.srcs E
  dst : W (Proc.devRef .tc main_v6) = Cert.ReferenceIdeal.Stages.dsts E
  col : W (Proc.devRef .tc main_v33) = Cert.ReferenceIdeal.Stages.edgeCol E
  wts : W (Proc.devRef .tc main_arg2) = Wt
  bia : W (Proc.devRef .tc main_arg3) = B

variable {E Wt B}
variable {W : Valuation τ sig (Elt Ideal)}

/-- The stretch of host operations `hostOps1` writes none of the five. -/
theorem live_h1 (h : Live E Wt B W) : Live E Wt B (StableHlo.after (hostOps1 (F := Ideal)) W) := by
  refine ⟨?_, ?_, ?_, ?_, ?_⟩ <;> unfold hostOps1 <;> after_results
  exacts [h.src, h.dst, h.col, h.wts, h.bia]
/-- The stretch of host operations `hostOps2` writes none of the five. -/
theorem live_h2 (h : Live E Wt B W) : Live E Wt B (StableHlo.after (hostOps2 (F := Ideal)) W) := by
  refine ⟨?_, ?_, ?_, ?_, ?_⟩ <;> unfold hostOps2 <;> after_results
  exacts [h.src, h.dst, h.col, h.wts, h.bia]
/-- The stretch of host operations `hostOps3` writes none of the five. -/
theorem live_h3 (h : Live E Wt B W) : Live E Wt B (StableHlo.after (hostOps3 (F := Ideal)) W) := by
  refine ⟨?_, ?_, ?_, ?_, ?_⟩ <;> unfold hostOps3 <;> after_results
  exacts [h.src, h.dst, h.col, h.wts, h.bia]
/-- The stretch of host operations `hostOps4` writes none of the five. -/
theorem live_h4 (h : Live E Wt B W) : Live E Wt B (StableHlo.after (hostOps4 (F := Ideal)) W) := by
  refine ⟨?_, ?_, ?_, ?_, ?_⟩ <;> unfold hostOps4 <;> after_results
  exacts [h.src, h.dst, h.col, h.wts, h.bia]
/-- The stretch of host operations `hostOps5` writes none of the five. -/
theorem live_h5 (h : Live E Wt B W) : Live E Wt B (StableHlo.after (hostOps5 (F := Ideal)) W) := by
  refine ⟨?_, ?_, ?_, ?_, ?_⟩ <;> unfold hostOps5 <;> after_results
  exacts [h.src, h.dst, h.col, h.wts, h.bia]
/-- The stretch of host operations `hostOps6` writes none of the five. -/
theorem live_h6 (h : Live E Wt B W) : Live E Wt B (StableHlo.after (hostOps6 (F := Ideal)) W) := by
  refine ⟨?_, ?_, ?_, ?_, ?_⟩ <;> unfold hostOps6 <;> after_results
  exacts [h.src, h.dst, h.col, h.wts, h.bia]
/-- The stretch of host operations `hostOps7` writes none of the five. -/
theorem live_h7 (h : Live E Wt B W) : Live E Wt B (StableHlo.after (hostOps7 (F := Ideal)) W) := by
  refine ⟨?_, ?_, ?_, ?_, ?_⟩ <;> unfold hostOps7 <;> after_results
  exacts [h.src, h.dst, h.col, h.wts, h.bia]
/-- The stretch of host operations `hostOps8` writes none of the five. -/
theorem live_h8 (h : Live E Wt B W) : Live E Wt B (StableHlo.after (hostOps8 (F := Ideal)) W) := by
  refine ⟨?_, ?_, ?_, ?_, ?_⟩ <;> unfold hostOps8 <;> after_results
  exacts [h.src, h.dst, h.col, h.wts, h.bia]

/-! ## The stretches between the calls -/

/-- The stretch before an edge-scaling call: each edge's source row of the array the matmul call wrote. -/
theorem gather_h1 (h : Live E Wt B W) (H : FVec Ideal S100000x128 .f32) (hH : W (Proc.devRef .tc main_v36) = H) :
    StableHlo.after (hostOps1 (F := Ideal)) W (Proc.devRef .tc main_v43) = Cert.ReferenceIdeal.Stages.gathered E H := by
  unfold hostOps1
  after_results
  rw [h.src, hH]
  rfl
/-- The stretch before a bias call: the scaled rows added into their destinations … -/
theorem scatter_h2 (h : Live E Wt B W) (M : FVec Ideal S700000x128 .f32) (hM : W (Proc.devRef .tc main_v44) = M) :
    StableHlo.after (hostOps2 (F := Ideal)) W (Proc.devRef .tc main_v47) = Cert.ReferenceIdeal.Stages.summed E M := by
  unfold hostOps2
  after_results
  rw [h.dst, hM]
  rfl
/-- … and the layer's bias as a row. -/
theorem bias_h2 (h : Live E Wt B W) :
    StableHlo.after (hostOps2 (F := Ideal)) W (Proc.devRef .tc main_v50) = Cert.ReferenceIdeal.Stages.biasRow (Cert.ReferenceIdeal.Stages.bias0 B) := by
  unfold hostOps2
  after_results
  rw [h.bia]
  exact (show _ = shapeCast S1x128 (Cert.ReferenceIdeal.Stages.bias0 B) shapeCasts_S128_S1x128 from rfl).trans (row_reshape _ _ _)
/-- The stretch before a later matmul call: the layer's weights out of the stack; the previous layer's output stays. -/
theorem weight_h3 (h : Live E Wt B W) :
    StableHlo.after (hostOps3 (F := Ideal)) W (Proc.devRef .tc main_v53) = Cert.ReferenceIdeal.Stages.weight1 Wt := by
  unfold hostOps3
  after_results
  rw [h.wts]
  rfl
theorem feat_h3 : StableHlo.after (hostOps3 (F := Ideal)) W (Proc.devRef .tc main_v51) = W (Proc.devRef .tc main_v51) := by
  unfold hostOps3
  after_results
/-- The stretch before an edge-scaling call: each edge's source row of the array the matmul call wrote. -/
theorem gather_h4 (h : Live E Wt B W) (H : FVec Ideal S100000x128 .f32) (hH : W (Proc.devRef .tc main_v54) = H) :
    StableHlo.after (hostOps4 (F := Ideal)) W (Proc.devRef .tc main_v61) = Cert.ReferenceIdeal.Stages.gathered E H := by
  unfold hostOps4
  after_results
  rw [h.src, hH]
  rfl
/-- The stretch before a bias call: the scaled rows added into their destinations … -/
theorem scatter_h5 (h : Live E Wt B W) (M : FVec Ideal S700000x128 .f32) (hM : W (Proc.devRef .tc main_v62) = M) :
    StableHlo.after (hostOps5 (F := Ideal)) W (Proc.devRef .tc main_v65) = Cert.ReferenceIdeal.Stages.summed E M := by
  unfold hostOps5
  after_results
  rw [h.dst, hM]
  rfl
/-- … and the layer's bias as a row. -/
theorem bias_h5 (h : Live E Wt B W) :
    StableHlo.after (hostOps5 (F := Ideal)) W (Proc.devRef .tc main_v68) = Cert.ReferenceIdeal.Stages.biasRow (Cert.ReferenceIdeal.Stages.bias1 B) := by
  unfold hostOps5
  after_results
  rw [h.bia]
  exact (show _ = shapeCast S1x128 (Cert.ReferenceIdeal.Stages.bias1 B) shapeCasts_S128_S1x128 from rfl).trans (row_reshape _ _ _)
/-- The stretch before a later matmul call: the layer's weights out of the stack; the previous layer's output stays. -/
theorem weight_h6 (h : Live E Wt B W) :
    StableHlo.after (hostOps6 (F := Ideal)) W (Proc.devRef .tc main_v71) = Cert.ReferenceIdeal.Stages.weight2 Wt := by
  unfold hostOps6
  after_results
  rw [h.wts]
  rfl
theorem feat_h6 : StableHlo.after (hostOps6 (F := Ideal)) W (Proc.devRef .tc main_v69) = W (Proc.devRef .tc main_v69) := by
  unfold hostOps6
  after_results
/-- The stretch before an edge-scaling call: each edge's source row of the array the matmul call wrote. -/
theorem gather_h7 (h : Live E Wt B W) (H : FVec Ideal S100000x128 .f32) (hH : W (Proc.devRef .tc main_v72) = H) :
    StableHlo.after (hostOps7 (F := Ideal)) W (Proc.devRef .tc main_v79) = Cert.ReferenceIdeal.Stages.gathered E H := by
  unfold hostOps7
  after_results
  rw [h.src, hH]
  rfl
/-- The stretch before a bias call: the scaled rows added into their destinations … -/
theorem scatter_h8 (h : Live E Wt B W) (M : FVec Ideal S700000x128 .f32) (hM : W (Proc.devRef .tc main_v80) = M) :
    StableHlo.after (hostOps8 (F := Ideal)) W (Proc.devRef .tc main_v83) = Cert.ReferenceIdeal.Stages.summed E M := by
  unfold hostOps8
  after_results
  rw [h.dst, hM]
  rfl
/-- … and the layer's bias as a row. -/
theorem bias_h8 (h : Live E Wt B W) :
    StableHlo.after (hostOps8 (F := Ideal)) W (Proc.devRef .tc main_v86) = Cert.ReferenceIdeal.Stages.biasRow (Cert.ReferenceIdeal.Stages.bias2 B) := by
  unfold hostOps8
  after_results
  rw [h.bia]
  exact (show _ = shapeCast S1x128 (Cert.ReferenceIdeal.Stages.bias2 B) shapeCasts_S128_S1x128 from rfl).trans (row_reshape _ _ _)

end

end Cert.KernelIdeal.Hand

end
-- ==== Proof.HostPrefix.lean ====
/-
  The host operations before the first kernel call, read from ANY contents `W` they are entered with: five stretches.
  The first forms the edges' ends from the edge list, counts the edges into each node and compares the counts with zero;
  the second and the fourth are the two selections (`where`) around the third's inverse square root; the fifth gathers that
  quantity at the two ends of every edge, multiplies, lays the product out as a column, and takes the first layer's
  weights out of the stack. Each stretch is read with the values it starts from as unknowns, so that nothing larger than the
  stretch's own operations is ever compared; composed, they give the reference's stages of the same names.
-/
import proofs.«143396_j58600533786650_1_alg».proof.Proof.HostStretches

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.StableHlo

variable {W : Valuation τ sig (Elt Ideal)}

/-! ## What each stretch leaves alone -/

theorem keep0_arg1 : StableHlo.after (hostOps0 (F := Ideal)) W (Proc.devRef .tc main_arg1) = W (Proc.devRef .tc main_arg1) := by
  unfold hostOps0
  after_results_simp
theorem keep0_arg2 : StableHlo.after (hostOps0 (F := Ideal)) W (Proc.devRef .tc main_arg2) = W (Proc.devRef .tc main_arg2) := by
  unfold hostOps0
  after_results_simp
theorem keep0_arg3 : StableHlo.after (hostOps0 (F := Ideal)) W (Proc.devRef .tc main_arg3) = W (Proc.devRef .tc main_arg3) := by
  unfold hostOps0
  after_results_simp
theorem keep0_1_v3 : StableHlo.after (hostOps0_1 (F := Ideal)) W (Proc.devRef .tc main_v3) = W (Proc.devRef .tc main_v3) := by
  unfold hostOps0_1
  after_results_simp
theorem keep0_1_v6 : StableHlo.after (hostOps0_1 (F := Ideal)) W (Proc.devRef .tc main_v6) = W (Proc.devRef .tc main_v6) := by
  unfold hostOps0_1
  after_results_simp
theorem keep0_1_v12 : StableHlo.after (hostOps0_1 (F := Ideal)) W (Proc.devRef .tc main_v12) = W (Proc.devRef .tc main_v12) := by
  unfold hostOps0_1
  after_results_simp
theorem keep0_1_arg1 : StableHlo.after (hostOps0_1 (F := Ideal)) W (Proc.devRef .tc main_arg1) = W (Proc.devRef .tc main_arg1) := by
  unfold hostOps0_1
  after_results_simp
theorem keep0_1_arg2 : StableHlo.after (hostOps0_1 (F := Ideal)) W (Proc.devRef .tc main_arg2) = W (Proc.devRef .tc main_arg2) := by
  unfold hostOps0_1
  after_results_simp
theorem keep0_1_arg3 : StableHlo.after (hostOps0_1 (F := Ideal)) W (Proc.devRef .tc main_arg3) = W (Proc.devRef .tc main_arg3) := by
  unfold hostOps0_1
  after_results_simp
theorem keep0_2_v3 : StableHlo.after (hostOps0_2 (F := Ideal)) W (Proc.devRef .tc main_v3) = W (Proc.devRef .tc main_v3) := by
  unfold hostOps0_2
  after_results_simp
theorem keep0_2_v6 : StableHlo.after (hostOps0_2 (F := Ideal)) W (Proc.devRef .tc main_v6) = W (Proc.devRef .tc main_v6) := by
  unfold hostOps0_2
  after_results_simp
theorem keep0_2_v12 : StableHlo.after (hostOps0_2 (F := Ideal)) W (Proc.devRef .tc main_v12) = W (Proc.devRef .tc main_v12) := by
  unfold hostOps0_2
  after_results_simp
theorem keep0_2_arg1 : StableHlo.after (hostOps0_2 (F := Ideal)) W (Proc.devRef .tc main_arg1) = W (Proc.devRef .tc main_arg1) := by
  unfold hostOps0_2
  after_results_simp
theorem keep0_2_arg2 : StableHlo.after (hostOps0_2 (F := Ideal)) W (Proc.devRef .tc main_arg2) = W (Proc.devRef .tc main_arg2) := by
  unfold hostOps0_2
  after_results_simp
theorem keep0_2_arg3 : StableHlo.after (hostOps0_2 (F := Ideal)) W (Proc.devRef .tc main_arg3) = W (Proc.devRef .tc main_arg3) := by
  unfold hostOps0_2
  after_results_simp
theorem keep0_3_v3 : StableHlo.after (hostOps0_3 (F := Ideal)) W (Proc.devRef .tc main_v3) = W (Proc.devRef .tc main_v3) := by
  unfold hostOps0_3
  after_results_simp
theorem keep0_3_v6 : StableHlo.after (hostOps0_3 (F := Ideal)) W (Proc.devRef .tc main_v6) = W (Proc.devRef .tc main_v6) := by
  unfold hostOps0_3
  after_results_simp
theorem keep0_3_arg1 : StableHlo.after (hostOps0_3 (F := Ideal)) W (Proc.devRef .tc main_arg1) = W (Proc.devRef .tc main_arg1) := by
  unfold hostOps0_3
  after_results_simp
theorem keep0_3_arg2 : StableHlo.after (hostOps0_3 (F := Ideal)) W (Proc.devRef .tc main_arg2) = W (Proc.devRef .tc main_arg2) := by
  unfold hostOps0_3
  after_results_simp
theorem keep0_3_arg3 : StableHlo.after (hostOps0_3 (F := Ideal)) W (Proc.devRef .tc main_arg3) = W (Proc.devRef .tc main_arg3) := by
  unfold hostOps0_3
  after_results_simp
theorem keep0_4_v3 : StableHlo.after (hostOps0_4 (F := Ideal)) W (Proc.devRef .tc main_v3) = W (Proc.devRef .tc main_v3) := by
  unfold hostOps0_4
  after_results_simp
theorem keep0_4_v6 : StableHlo.after (hostOps0_4 (F := Ideal)) W (Proc.devRef .tc main_v6) = W (Proc.devRef .tc main_v6) := by
  unfold hostOps0_4
  after_results_simp
theorem keep0_4_arg1 : StableHlo.after (hostOps0_4 (F := Ideal)) W (Proc.devRef .tc main_arg1) = W (Proc.devRef .tc main_arg1) := by
  unfold hostOps0_4
  after_results_simp
theorem keep0_4_arg2 : StableHlo.after (hostOps0_4 (F := Ideal)) W (Proc.devRef .tc main_arg2) = W (Proc.devRef .tc main_arg2) := by
  unfold hostOps0_4
  after_results_simp
theorem keep0_4_arg3 : StableHlo.after (hostOps0_4 (F := Ideal)) W (Proc.devRef .tc main_arg3) = W (Proc.devRef .tc main_arg3) := by
  unfold hostOps0_4
  after_results_simp

/-! ## What each stretch computes -/

/-- The first stretch: the edges' sources … -/
theorem ends_src : StableHlo.after (hostOps0 (F := Ideal)) W (Proc.devRef .tc main_v3) = Cert.ReferenceIdeal.Stages.srcs (W (Proc.devRef .tc main_arg0)) := by
  unfold hostOps0
  after_results_simp <;> rfl
/-- … their destinations … -/
theorem ends_dst : StableHlo.after (hostOps0 (F := Ideal)) W (Proc.devRef .tc main_v6) = Cert.ReferenceIdeal.Stages.dsts (W (Proc.devRef .tc main_arg0)) := by
  unfold hostOps0
  after_results_simp <;> rfl
/-- … the number of edges into each node … -/
theorem ends_deg : StableHlo.after (hostOps0 (F := Ideal)) W (Proc.devRef .tc main_v10) = Cert.ReferenceIdeal.Stages.degree (W (Proc.devRef .tc main_arg0)) := by
  unfold hostOps0
  after_results_simp
  finish_results
  rfl
/-- … where it is positive (computed twice) … -/
theorem ends_pos12 : StableHlo.after (hostOps0 (F := Ideal)) W (Proc.devRef .tc main_v12)
    = cmpf (F := Ideal) .ogt (Cert.ReferenceIdeal.Stages.degree (W (Proc.devRef .tc main_arg0))) (broadcastInDim S100000 ![] bcast_S_S100000 (constant (F := Ideal) S_ .f32 0x00000000#32)) := by
  unfold hostOps0
  after_results_simp
  finish_results
  rfl
theorem ends_pos14 : StableHlo.after (hostOps0 (F := Ideal)) W (Proc.devRef .tc main_v14)
    = cmpf (F := Ideal) .ogt (Cert.ReferenceIdeal.Stages.degree (W (Proc.devRef .tc main_arg0))) (broadcastInDim S100000 ![] bcast_S_S100000 (constant (F := Ideal) S_ .f32 0x00000000#32)) := by
  unfold hostOps0
  after_results_simp
  finish_results
  rfl
/-- … and the constant one. -/
theorem ends_one : StableHlo.after (hostOps0 (F := Ideal)) W (Proc.devRef .tc main_cst_3) = constant (F := Ideal) S_ .f32 0x3F800000#32 := by
  unfold hostOps0
  after_results_simp

/-- The second stretch: the count where it is positive, one elsewhere. -/
theorem where_pos {p : IVec S100000 1} {d : FVec Ideal S100000 .f32} {k : FVec Ideal S_ .f32}
    (hp : W (Proc.devRef .tc main_v14) = p) (hd : W (Proc.devRef .tc main_v10) = d) (hk : W (Proc.devRef .tc main_cst_3) = k) :
    StableHlo.after (hostOps0_1 (F := Ideal)) W (Proc.devRef .tc main_v15) = select p d (broadcastInDim S100000 ![] bcast_S_S100000 (id k)) := by
  unfold hostOps0_1
  after_results_simp
  rw [hp, hd, hk]
  rfl

/-- The third stretch: its inverse square root, and the constant zero. -/
theorem rsqrt_of {a : FVec Ideal S100000 .f32} (ha : W (Proc.devRef .tc main_v15) = a) :
    StableHlo.after (hostOps0_2 (F := Ideal)) W (Proc.devRef .tc main_v16) = Host.rsqrt a := by
  unfold hostOps0_2
  after_results_simp
  rw [ha]
theorem zero_of : StableHlo.after (hostOps0_2 (F := Ideal)) W (Proc.devRef .tc main_cst_4) = constant (F := Ideal) S_ .f32 0x00000000#32 := by
  unfold hostOps0_2
  after_results_simp

/-- The fourth stretch: that root where the count is positive, zero elsewhere. -/
theorem where_root {p : IVec S100000 1} {r : FVec Ideal S100000 .f32} {k : FVec Ideal S_ .f32}
    (hp : W (Proc.devRef .tc main_v12) = p) (hr : W (Proc.devRef .tc main_v16) = r) (hk : W (Proc.devRef .tc main_cst_4) = k) :
    StableHlo.after (hostOps0_3 (F := Ideal)) W (Proc.devRef .tc main_v17) = select p r (broadcastInDim S100000 ![] bcast_S_S100000 (id k)) := by
  unfold hostOps0_3
  after_results_simp
  rw [hp, hr, hk]
  rfl

/-- The fifth stretch: the column of edge weights from that quantity and the edges' ends … -/
theorem col_of {dv : FVec Ideal S100000 .f32} {s t : Vec Ideal S700000 .i32}
    (hv : W (Proc.devRef .tc main_v17) = dv) (hs : W (Proc.devRef .tc main_v3) = s) (ht : W (Proc.devRef .tc main_v6) = t) :
    StableHlo.after (hostOps0_4 (F := Ideal)) W (Proc.devRef .tc main_v33)
      = broadcastInDim S700000x1 ![0] bcast_S700000_S700000x1_0
          (mulf (Host.gather gather_S100000_S700000x1_S700000_n_0_n_n_0_1_1 dv (Cert.ReferenceIdeal.Stages.wrapIdx s))
            (Host.gather gather_S100000_S700000x1_S700000_n_0_n_n_0_1_1 dv (Cert.ReferenceIdeal.Stages.wrapIdx t))) := by
  unfold hostOps0_4
  after_results_simp
  rw [hv, hs, ht]
  exact (show _ = shapeCast S700000x1 (mulf (Host.gather gather_S100000_S700000x1_S700000_n_0_n_n_0_1_1 dv (Cert.ReferenceIdeal.Stages.wrapIdx s))
            (Host.gather gather_S100000_S700000x1_S700000_n_0_n_n_0_1_1 dv (Cert.ReferenceIdeal.Stages.wrapIdx t))) shapeCasts_S700000_S700000x1 from rfl).trans
    (col_reshape _ _ _)
/-- … and the first layer's weights out of the stack. -/
theorem weight_of : StableHlo.after (hostOps0_4 (F := Ideal)) W (Proc.devRef .tc main_v35) = Cert.ReferenceIdeal.Stages.weight0 (W (Proc.devRef .tc main_arg2)) := by
  unfold hostOps0_4
  after_results_simp <;> rfl

/-! ## The five stretches together -/

/-- The contents after the five stretches. -/
abbrev afterPrefix (W : Valuation τ sig (Elt Ideal)) : Valuation τ sig (Elt Ideal) :=
  StableHlo.after (hostOps0_4 (F := Ideal)) (StableHlo.after hostOps0_3 (StableHlo.after hostOps0_2 (StableHlo.after hostOps0_1 (StableHlo.after hostOps0 W))))

theorem prefix_src : afterPrefix W (Proc.devRef .tc main_v3) = Cert.ReferenceIdeal.Stages.srcs (W (Proc.devRef .tc main_arg0)) :=
  keep0_4_v3.trans (keep0_3_v3.trans (keep0_2_v3.trans (keep0_1_v3.trans ends_src)))
theorem prefix_dst : afterPrefix W (Proc.devRef .tc main_v6) = Cert.ReferenceIdeal.Stages.dsts (W (Proc.devRef .tc main_arg0)) :=
  keep0_4_v6.trans (keep0_3_v6.trans (keep0_2_v6.trans (keep0_1_v6.trans ends_dst)))
theorem prefix_wts : afterPrefix W (Proc.devRef .tc main_arg2) = W (Proc.devRef .tc main_arg2) :=
  keep0_4_arg2.trans (keep0_3_arg2.trans (keep0_2_arg2.trans (keep0_1_arg2.trans keep0_arg2)))
theorem prefix_bia : afterPrefix W (Proc.devRef .tc main_arg3) = W (Proc.devRef .tc main_arg3) :=
  keep0_4_arg3.trans (keep0_3_arg3.trans (keep0_2_arg3.trans (keep0_1_arg3.trans keep0_arg3)))
/-- The node features are left alone … -/
theorem feat_prefix : afterPrefix W (Proc.devRef .tc main_arg1) = W (Proc.devRef .tc main_arg1) :=
  keep0_4_arg1.trans (keep0_3_arg1.trans (keep0_2_arg1.trans (keep0_1_arg1.trans keep0_arg1)))
/-- … the first layer's weights are taken out of the stack … -/
theorem weight_prefix : afterPrefix W (Proc.devRef .tc main_v35) = Cert.ReferenceIdeal.Stages.weight0 (W (Proc.devRef .tc main_arg2)) :=
  weight_of.trans (congrArg Cert.ReferenceIdeal.Stages.weight0 (keep0_3_arg2.trans (keep0_2_arg2.trans (keep0_1_arg2.trans keep0_arg2))))
/-- … and the column of edge weights is the reference's. -/
theorem prefix_col : afterPrefix W (Proc.devRef .tc main_v33) = Cert.ReferenceIdeal.Stages.edgeCol (W (Proc.devRef .tc main_arg0)) :=
  col_of
    (where_root (keep0_2_v12.trans (keep0_1_v12.trans ends_pos12))
      (rsqrt_of (where_pos ends_pos14 ends_deg ends_one)) zero_of)
    (keep0_3_v3.trans (keep0_2_v3.trans (keep0_1_v3.trans ends_src)))
    (keep0_3_v6.trans (keep0_2_v6.trans (keep0_1_v6.trans ends_dst)))

/-- After the five stretches the contents hold the edges' ends, the column of edge weights and the stacked arguments. -/
theorem live_prefix : Live (W (Proc.devRef .tc main_arg0)) (W (Proc.devRef .tc main_arg2)) (W (Proc.devRef .tc main_arg3)) (afterPrefix W) :=
  ⟨prefix_src, prefix_dst, prefix_col, prefix_wts, prefix_bia⟩

end Cert.KernelIdeal.Hand

end
-- ==== Proof.KernelValue.lean ====
/-
  The idealized kernel program's result as a function of its arguments.

  The contents after each segment of @main are read in order. The stretches before the first call leave the edges' ends,
  the column of edge weights and the stacked arguments in buffers nothing writes again. Then, three times: the matmul
  call leaves `linear` of the layer's input and weights; the next stretch gathers its rows at the edges' sources; the
  scaling call leaves `scale` of those rows and the edge weights; the next stretch adds them into the destinations and lays
  the bias out as a row; the bias call leaves `biasRelu` of the sums and that row — which is the reference's `layer` of the
  same input. After the ninth call the result buffer holds the reference's `gcnOut` of the four arguments.
-/
import proofs.«143396_j58600533786650_1_alg».proof.Proof.Gen.KernelIdeal.Frame
import proofs.«143396_j58600533786650_1_alg».proof.Proof.Linear0
import proofs.«143396_j58600533786650_1_alg».proof.Proof.Scale1
import proofs.«143396_j58600533786650_1_alg».proof.Proof.BiasRelu2
import proofs.«143396_j58600533786650_1_alg».proof.Proof.Linear3
import proofs.«143396_j58600533786650_1_alg».proof.Proof.Scale4
import proofs.«143396_j58600533786650_1_alg».proof.Proof.BiasRelu5
import proofs.«143396_j58600533786650_1_alg».proof.Proof.Linear6
import proofs.«143396_j58600533786650_1_alg».proof.Proof.Scale7
import proofs.«143396_j58600533786650_1_alg».proof.Proof.BiasRelu8
import proofs.«143396_j58600533786650_1_alg».proof.Proof.HostStretches
import proofs.«143396_j58600533786650_1_alg».proof.Proof.HostPrefix
import proofs.«143396_j58600533786650_1_alg».proof.Proof.RefStages

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The four arguments as launched on core `c`: the edge list, the node features, the stacked weights, the stacked biases. -/
abbrev argE : Vec Ideal S2x600000 .i32 := m ((c.tc : Thread nD τ).loc main_arg0)
abbrev argX : FVec Ideal S100000x128 .f32 := m ((c.tc : Thread nD τ).loc main_arg1)
abbrev argW : FVec Ideal S3x128x128 .f32 := m ((c.tc : Thread nD τ).loc main_arg2)
abbrev argB : FVec Ideal S3x128 .f32 := m ((c.tc : Thread nD τ).loc main_arg3)

/-! ## The five long-lived buffers at every boundary -/

theorem live5 : Live (argE m c) (argW m c) (argB m c) (W5 m ρ c) :=
  live_prefix (W := W0 m ρ c)
theorem live6 : Live (argE m c) (argW m c) (argB m c) (W6 m ρ c) :=
  ⟨(W6_of_ne m ρ c main_v3 (by decide)).trans (live5 m ρ c).src, (W6_of_ne m ρ c main_v6 (by decide)).trans (live5 m ρ c).dst,
   (W6_of_ne m ρ c main_v33 (by decide)).trans (live5 m ρ c).col, (W6_of_ne m ρ c main_arg2 (by decide)).trans (live5 m ρ c).wts,
   (W6_of_ne m ρ c main_arg3 (by decide)).trans (live5 m ρ c).bia⟩
theorem live7 : Live (argE m c) (argW m c) (argB m c) (W7 m ρ c) := live_h1 (live6 m ρ c)
theorem live8 : Live (argE m c) (argW m c) (argB m c) (W8 m ρ c) :=
  ⟨(W8_of_ne m ρ c main_v3 (by decide)).trans (live7 m ρ c).src, (W8_of_ne m ρ c main_v6 (by decide)).trans (live7 m ρ c).dst,
   ((W8_arr m ρ c 1).trans (((dat1 (V7 m ρ) c).arrAt_in 1 rfl _).trans (A_eq1 (V7 m ρ) c 1))).trans (live7 m ρ c).col, (W8_of_ne m ρ c main_arg2 (by decide)).trans (live7 m ρ c).wts,
   (W8_of_ne m ρ c main_arg3 (by decide)).trans (live7 m ρ c).bia⟩
theorem live9 : Live (argE m c) (argW m c) (argB m c) (W9 m ρ c) := live_h2 (live8 m ρ c)
theorem live10 : Live (argE m c) (argW m c) (argB m c) (W10 m ρ c) :=
  ⟨(W10_of_ne m ρ c main_v3 (by decide)).trans (live9 m ρ c).src, (W10_of_ne m ρ c main_v6 (by decide)).trans (live9 m ρ c).dst,
   (W10_of_ne m ρ c main_v33 (by decide)).trans (live9 m ρ c).col, (W10_of_ne m ρ c main_arg2 (by decide)).trans (live9 m ρ c).wts,
   (W10_of_ne m ρ c main_arg3 (by decide)).trans (live9 m ρ c).bia⟩
theorem live11 : Live (argE m c) (argW m c) (argB m c) (W11 m ρ c) := live_h3 (live10 m ρ c)
theorem live12 : Live (argE m c) (argW m c) (argB m c) (W12 m ρ c) :=
  ⟨(W12_of_ne m ρ c main_v3 (by decide)).trans (live11 m ρ c).src, (W12_of_ne m ρ c main_v6 (by decide)).trans (live11 m ρ c).dst,
   (W12_of_ne m ρ c main_v33 (by decide)).trans (live11 m ρ c).col, (W12_of_ne m ρ c main_arg2 (by decide)).trans (live11 m ρ c).wts,
   (W12_of_ne m ρ c main_arg3 (by decide)).trans (live11 m ρ c).bia⟩
theorem live13 : Live (argE m c) (argW m c) (argB m c) (W13 m ρ c) := live_h4 (live12 m ρ c)
theorem live14 : Live (argE m c) (argW m c) (argB m c) (W14 m ρ c) :=
  ⟨(W14_of_ne m ρ c main_v3 (by decide)).trans (live13 m ρ c).src, (W14_of_ne m ρ c main_v6 (by decide)).trans (live13 m ρ c).dst,
   ((W14_arr m ρ c 1).trans (((dat4 (V13 m ρ) c).arrAt_in 1 rfl _).trans (A_eq4 (V13 m ρ) c 1))).trans (live13 m ρ c).col, (W14_of_ne m ρ c main_arg2 (by decide)).trans (live13 m ρ c).wts,
   (W14_of_ne m ρ c main_arg3 (by decide)).trans (live13 m ρ c).bia⟩
theorem live15 : Live (argE m c) (argW m c) (argB m c) (W15 m ρ c) := live_h5 (live14 m ρ c)
theorem live16 : Live (argE m c) (argW m c) (argB m c) (W16 m ρ c) :=
  ⟨(W16_of_ne m ρ c main_v3 (by decide)).trans (live15 m ρ c).src, (W16_of_ne m ρ c main_v6 (by decide)).trans (live15 m ρ c).dst,
   (W16_of_ne m ρ c main_v33 (by decide)).trans (live15 m ρ c).col, (W16_of_ne m ρ c main_arg2 (by decide)).trans (live15 m ρ c).wts,
   (W16_of_ne m ρ c main_arg3 (by decide)).trans (live15 m ρ c).bia⟩
theorem live17 : Live (argE m c) (argW m c) (argB m c) (W17 m ρ c) := live_h6 (live16 m ρ c)
theorem live18 : Live (argE m c) (argW m c) (argB m c) (W18 m ρ c) :=
  ⟨(W18_of_ne m ρ c main_v3 (by decide)).trans (live17 m ρ c).src, (W18_of_ne m ρ c main_v6 (by decide)).trans (live17 m ρ c).dst,
   (W18_of_ne m ρ c main_v33 (by decide)).trans (live17 m ρ c).col, (W18_of_ne m ρ c main_arg2 (by decide)).trans (live17 m ρ c).wts,
   (W18_of_ne m ρ c main_arg3 (by decide)).trans (live17 m ρ c).bia⟩
theorem live19 : Live (argE m c) (argW m c) (argB m c) (W19 m ρ c) := live_h7 (live18 m ρ c)
theorem live20 : Live (argE m c) (argW m c) (argB m c) (W20 m ρ c) :=
  ⟨(W20_of_ne m ρ c main_v3 (by decide)).trans (live19 m ρ c).src, (W20_of_ne m ρ c main_v6 (by decide)).trans (live19 m ρ c).dst,
   ((W20_arr m ρ c 1).trans (((dat7 (V19 m ρ) c).arrAt_in 1 rfl _).trans (A_eq7 (V19 m ρ) c 1))).trans (live19 m ρ c).col, (W20_of_ne m ρ c main_arg2 (by decide)).trans (live19 m ρ c).wts,
   (W20_of_ne m ρ c main_arg3 (by decide)).trans (live19 m ρ c).bia⟩

/-! ## Layer 1 -/

theorem featIn1 : W5 m ρ c (Proc.devRef .tc main_arg1) = argX m c := feat_prefix (W := W0 m ρ c)
theorem wIn1 : W5 m ρ c (Proc.devRef .tc main_v35) = Cert.ReferenceIdeal.Stages.weight0 (argW m c) := weight_prefix (W := W0 m ρ c)

/-- After the layer's matmul call. -/
theorem lin1 : W6 m ρ c (Proc.devRef .tc main_v36) = (GcnLayer.linear (argX m c) (Cert.ReferenceIdeal.Stages.weight0 (argW m c))) := by
  refine (W6_arr m ρ c 2).trans ((final0 (V5 m ρ) c).trans ?_)
  show GcnLayer.linear (W5 m ρ c (Proc.devRef .tc main_arg1)) (W5 m ρ c (Proc.devRef .tc main_v35)) = _
  rw [featIn1 m ρ c, wIn1 m ρ c]
/-- After the gather. -/
theorem gat1 : W7 m ρ c (Proc.devRef .tc main_v43) = (Cert.ReferenceIdeal.Stages.gathered (argE m c) (GcnLayer.linear (argX m c) (Cert.ReferenceIdeal.Stages.weight0 (argW m c)))) :=
  gather_h1 (live6 m ρ c) _ (lin1 m ρ c)
/-- After the layer's scaling call. -/
theorem msg1 : W8 m ρ c (Proc.devRef .tc main_v44) = (GcnLayer.scale (Cert.ReferenceIdeal.Stages.gathered (argE m c) (GcnLayer.linear (argX m c) (Cert.ReferenceIdeal.Stages.weight0 (argW m c)))) (Cert.ReferenceIdeal.Stages.edgeCol (argE m c))) := by
  refine (W8_arr m ρ c 2).trans ((final1 (V7 m ρ) c).trans ?_)
  show GcnLayer.scale (W7 m ρ c (Proc.devRef .tc main_v43)) (W7 m ρ c (Proc.devRef .tc main_v33)) = _
  rw [gat1 m ρ c, (live7 m ρ c).col]
/-- After the scatter, and the bias laid out. -/
theorem agg1 : W9 m ρ c (Proc.devRef .tc main_v47) = (Cert.ReferenceIdeal.Stages.summed (argE m c) (GcnLayer.scale (Cert.ReferenceIdeal.Stages.gathered (argE m c) (GcnLayer.linear (argX m c) (Cert.ReferenceIdeal.Stages.weight0 (argW m c)))) (Cert.ReferenceIdeal.Stages.edgeCol (argE m c)))) :=
  scatter_h2 (live8 m ρ c) _ (msg1 m ρ c)
theorem bia1 : W9 m ρ c (Proc.devRef .tc main_v50) = Cert.ReferenceIdeal.Stages.biasRow (Cert.ReferenceIdeal.Stages.bias0 (argB m c)) :=
  bias_h2 (live8 m ρ c)
/-- After the layer's bias call: the reference's layer of the same input. -/
theorem out1 : W10 m ρ c (Proc.devRef .tc main_v51) = (Cert.ReferenceIdeal.Stages.layer (argE m c) (argX m c) (Cert.ReferenceIdeal.Stages.weight0 (argW m c)) (Cert.ReferenceIdeal.Stages.bias0 (argB m c))) := by
  refine (W10_arr m ρ c 2).trans ((final2 (V9 m ρ) c).trans ?_)
  show GcnLayer.biasRelu (W9 m ρ c (Proc.devRef .tc main_v47)) (W9 m ρ c (Proc.devRef .tc main_v50)) = _
  rw [agg1 m ρ c, bia1 m ρ c]
  exact (Cert.ReferenceIdeal.Stages.layer_eq _ _ _ _).symm

/-! ## Layer 2 -/

theorem featIn2 : W11 m ρ c (Proc.devRef .tc main_v51) = (Cert.ReferenceIdeal.Stages.layer (argE m c) (argX m c) (Cert.ReferenceIdeal.Stages.weight0 (argW m c)) (Cert.ReferenceIdeal.Stages.bias0 (argB m c))) :=
  (feat_h3 (W := W10 m ρ c)).trans (out1 m ρ c)
theorem wIn2 : W11 m ρ c (Proc.devRef .tc main_v53) = Cert.ReferenceIdeal.Stages.weight1 (argW m c) := weight_h3 (live10 m ρ c)

/-- After the layer's matmul call. -/
theorem lin2 : W12 m ρ c (Proc.devRef .tc main_v54) = (GcnLayer.linear (Cert.ReferenceIdeal.Stages.layer (argE m c) (argX m c) (Cert.ReferenceIdeal.Stages.weight0 (argW m c)) (Cert.ReferenceIdeal.Stages.bias0 (argB m c))) (Cert.ReferenceIdeal.Stages.weight1 (argW m c))) := by
  refine (W12_arr m ρ c 2).trans ((final3 (V11 m ρ) c).trans ?_)
  show GcnLayer.linear (W11 m ρ c (Proc.devRef .tc main_v51)) (W11 m ρ c (Proc.devRef .tc main_v53)) = _
  rw [featIn2 m ρ c, wIn2 m ρ c]
/-- After the gather. -/
theorem gat2 : W13 m ρ c (Proc.devRef .tc main_v61) = (Cert.ReferenceIdeal.Stages.gathered (argE m c) (GcnLayer.linear (Cert.ReferenceIdeal.Stages.layer (argE m c) (argX m c) (Cert.ReferenceIdeal.Stages.weight0 (argW m c)) (Cert.ReferenceIdeal.Stages.bias0 (argB m c))) (Cert.ReferenceIdeal.Stages.weight1 (argW m c)))) :=
  gather_h4 (live12 m ρ c) _ (lin2 m ρ c)
/-- After the layer's scaling call. -/
theorem msg2 : W14 m ρ c (Proc.devRef .tc main_v62) = (GcnLayer.scale (Cert.ReferenceIdeal.Stages.gathered (argE m c) (GcnLayer.linear (Cert.ReferenceIdeal.Stages.layer (argE m c) (argX m c) (Cert.ReferenceIdeal.Stages.weight0 (argW m c)) (Cert.ReferenceIdeal.Stages.bias0 (argB m c))) (Cert.ReferenceIdeal.Stages.weight1 (argW m c)))) (Cert.ReferenceIdeal.Stages.edgeCol (argE m c))) := by
  refine (W14_arr m ρ c 2).trans ((final4 (V13 m ρ) c).trans ?_)
  show GcnLayer.scale (W13 m ρ c (Proc.devRef .tc main_v61)) (W13 m ρ c (Proc.devRef .tc main_v33)) = _
  rw [gat2 m ρ c, (live13 m ρ c).col]
/-- After the scatter, and the bias laid out. -/
theorem agg2 : W15 m ρ c (Proc.devRef .tc main_v65) = (Cert.ReferenceIdeal.Stages.summed (argE m c) (GcnLayer.scale (Cert.ReferenceIdeal.Stages.gathered (argE m c) (GcnLayer.linear (Cert.ReferenceIdeal.Stages.layer (argE m c) (argX m c) (Cert.ReferenceIdeal.Stages.weight0 (argW m c)) (Cert.ReferenceIdeal.Stages.bias0 (argB m c))) (Cert.ReferenceIdeal.Stages.weight1 (argW m c)))) (Cert.ReferenceIdeal.Stages.edgeCol (argE m c)))) :=
  scatter_h5 (live14 m ρ c) _ (msg2 m ρ c)
theorem bia2 : W15 m ρ c (Proc.devRef .tc main_v68) = Cert.ReferenceIdeal.Stages.biasRow (Cert.ReferenceIdeal.Stages.bias1 (argB m c)) :=
  bias_h5 (live14 m ρ c)
/-- After the layer's bias call: the reference's layer of the same input. -/
theorem out2 : W16 m ρ c (Proc.devRef .tc main_v69) = (Cert.ReferenceIdeal.Stages.layer (argE m c) (Cert.ReferenceIdeal.Stages.layer (argE m c) (argX m c) (Cert.ReferenceIdeal.Stages.weight0 (argW m c)) (Cert.ReferenceIdeal.Stages.bias0 (argB m c))) (Cert.ReferenceIdeal.Stages.weight1 (argW m c)) (Cert.ReferenceIdeal.Stages.bias1 (argB m c))) := by
  refine (W16_arr m ρ c 2).trans ((final5 (V15 m ρ) c).trans ?_)
  show GcnLayer.biasRelu (W15 m ρ c (Proc.devRef .tc main_v65)) (W15 m ρ c (Proc.devRef .tc main_v68)) = _
  rw [agg2 m ρ c, bia2 m ρ c]
  exact (Cert.ReferenceIdeal.Stages.layer_eq _ _ _ _).symm

/-! ## Layer 3 -/

theorem featIn3 : W17 m ρ c (Proc.devRef .tc main_v69) = (Cert.ReferenceIdeal.Stages.layer (argE m c) (Cert.ReferenceIdeal.Stages.layer (argE m c) (argX m c) (Cert.ReferenceIdeal.Stages.weight0 (argW m c)) (Cert.ReferenceIdeal.Stages.bias0 (argB m c))) (Cert.ReferenceIdeal.Stages.weight1 (argW m c)) (Cert.ReferenceIdeal.Stages.bias1 (argB m c))) :=
  (feat_h6 (W := W16 m ρ c)).trans (out2 m ρ c)
theorem wIn3 : W17 m ρ c (Proc.devRef .tc main_v71) = Cert.ReferenceIdeal.Stages.weight2 (argW m c) := weight_h6 (live16 m ρ c)

/-- After the layer's matmul call. -/
theorem lin3 : W18 m ρ c (Proc.devRef .tc main_v72) = (GcnLayer.linear (Cert.ReferenceIdeal.Stages.layer (argE m c) (Cert.ReferenceIdeal.Stages.layer (argE m c) (argX m c) (Cert.ReferenceIdeal.Stages.weight0 (argW m c)) (Cert.ReferenceIdeal.Stages.bias0 (argB m c))) (Cert.ReferenceIdeal.Stages.weight1 (argW m c)) (Cert.ReferenceIdeal.Stages.bias1 (argB m c))) (Cert.ReferenceIdeal.Stages.weight2 (argW m c))) := by
  refine (W18_arr m ρ c 2).trans ((final6 (V17 m ρ) c).trans ?_)
  show GcnLayer.linear (W17 m ρ c (Proc.devRef .tc main_v69)) (W17 m ρ c (Proc.devRef .tc main_v71)) = _
  rw [featIn3 m ρ c, wIn3 m ρ c]
/-- After the gather. -/
theorem gat3 : W19 m ρ c (Proc.devRef .tc main_v79) = (Cert.ReferenceIdeal.Stages.gathered (argE m c) (GcnLayer.linear (Cert.ReferenceIdeal.Stages.layer (argE m c) (Cert.ReferenceIdeal.Stages.layer (argE m c) (argX m c) (Cert.ReferenceIdeal.Stages.weight0 (argW m c)) (Cert.ReferenceIdeal.Stages.bias0 (argB m c))) (Cert.ReferenceIdeal.Stages.weight1 (argW m c)) (Cert.ReferenceIdeal.Stages.bias1 (argB m c))) (Cert.ReferenceIdeal.Stages.weight2 (argW m c)))) :=
  gather_h7 (live18 m ρ c) _ (lin3 m ρ c)
/-- After the layer's scaling call. -/
theorem msg3 : W20 m ρ c (Proc.devRef .tc main_v80) = (GcnLayer.scale (Cert.ReferenceIdeal.Stages.gathered (argE m c) (GcnLayer.linear (Cert.ReferenceIdeal.Stages.layer (argE m c) (Cert.ReferenceIdeal.Stages.layer (argE m c) (argX m c) (Cert.ReferenceIdeal.Stages.weight0 (argW m c)) (Cert.ReferenceIdeal.Stages.bias0 (argB m c))) (Cert.ReferenceIdeal.Stages.weight1 (argW m c)) (Cert.ReferenceIdeal.Stages.bias1 (argB m c))) (Cert.ReferenceIdeal.Stages.weight2 (argW m c)))) (Cert.ReferenceIdeal.Stages.edgeCol (argE m c))) := by
  refine (W20_arr m ρ c 2).trans ((final7 (V19 m ρ) c).trans ?_)
  show GcnLayer.scale (W19 m ρ c (Proc.devRef .tc main_v79)) (W19 m ρ c (Proc.devRef .tc main_v33)) = _
  rw [gat3 m ρ c, (live19 m ρ c).col]
/-- After the scatter, and the bias laid out. -/
theorem agg3 : W21 m ρ c (Proc.devRef .tc main_v83) = (Cert.ReferenceIdeal.Stages.summed (argE m c) (GcnLayer.scale (Cert.ReferenceIdeal.Stages.gathered (argE m c) (GcnLayer.linear (Cert.ReferenceIdeal.Stages.layer (argE m c) (Cert.ReferenceIdeal.Stages.layer (argE m c) (argX m c) (Cert.ReferenceIdeal.Stages.weight0 (argW m c)) (Cert.ReferenceIdeal.Stages.bias0 (argB m c))) (Cert.ReferenceIdeal.Stages.weight1 (argW m c)) (Cert.ReferenceIdeal.Stages.bias1 (argB m c))) (Cert.ReferenceIdeal.Stages.weight2 (argW m c)))) (Cert.ReferenceIdeal.Stages.edgeCol (argE m c)))) :=
  scatter_h8 (live20 m ρ c) _ (msg3 m ρ c)
theorem bia3 : W21 m ρ c (Proc.devRef .tc main_v86) = Cert.ReferenceIdeal.Stages.biasRow (Cert.ReferenceIdeal.Stages.bias2 (argB m c)) :=
  bias_h8 (live20 m ρ c)
/-- After the layer's bias call: the reference's layer of the same input. -/
theorem out3 : W22 m ρ c (Proc.devRef .tc main_v87) = (Cert.ReferenceIdeal.Stages.layer (argE m c) (Cert.ReferenceIdeal.Stages.layer (argE m c) (Cert.ReferenceIdeal.Stages.layer (argE m c) (argX m c) (Cert.ReferenceIdeal.Stages.weight0 (argW m c)) (Cert.ReferenceIdeal.Stages.bias0 (argB m c))) (Cert.ReferenceIdeal.Stages.weight1 (argW m c)) (Cert.ReferenceIdeal.Stages.bias1 (argB m c))) (Cert.ReferenceIdeal.Stages.weight2 (argW m c)) (Cert.ReferenceIdeal.Stages.bias2 (argB m c))) := by
  refine (W22_arr m ρ c 2).trans ((final8 (V21 m ρ) c).trans ?_)
  show GcnLayer.biasRelu (W21 m ρ c (Proc.devRef .tc main_v83)) (W21 m ρ c (Proc.devRef .tc main_v86)) = _
  rw [agg3 m ρ c, bia3 m ρ c]
  exact (Cert.ReferenceIdeal.Stages.layer_eq _ _ _ _).symm

/-! ## The result -/

/-- After the last call the result buffer holds the reference's three layers of the four arguments. -/
theorem value : W22 m ρ c (Proc.devRef .tc main_v87) = Cert.ReferenceIdeal.Stages.gcnOut (argE m c) (argX m c) (argW m c) (argB m c) :=
  out3 m ρ c

end Cert.KernelIdeal.Hand

end
-- ==== Proof.lean ====
/-
  A three-layer graph convolution: the Pallas program against its jnp reference, over the extended reals.

  Both programs take an edge list, node features [100000,128], three stacked weight matrices and three stacked biases.
  Both add a self-loop per node, count the edges into each node, weight each edge by the inverse square roots of that
  count at its two ends, and then three times: multiply the features by the layer's weights, take each edge's source row,
  scale it by the edge's weight, add it into the edge's destination row, add the bias and take the maximum with zero.
  The Pallas program does the matrix product, the scaling and the bias-and-relu in kernel calls over blocks of rows
  (with the operands of the product rounded to bf16, the identity on extended reals); the gather and the scatter-add are
  the same host operations in both programs. So element by element the two results are the same extended real, with no
  algebraic law needed beyond reading each blocked kernel call as one whole-array function: finiteness of the inputs is
  never used.

  Modules: Spec (the three whole-array functions), KernelBodies (the three kernel bodies at an element), Linear* / Scale* /
  BiasRelu* (each kernel call's result array after the call), HostStretches (the host operations between the calls),
  KernelRun and KernelValue (the kernel program's run and its result as a function of the arguments), RefRunPatched and
  RefStages (the reference's run and its result in stages).
-/
import proofs.«143396_j58600533786650_1_alg».proof.Defs
import proofs.«143396_j58600533786650_1_alg».proof.Proof.Gen.Kernel
import proofs.«143396_j58600533786650_1_alg».proof.Proof.Gen.Kernel.Skeleton
import proofs.«143396_j58600533786650_1_alg».proof.Proof.Gen.Kernel.Launch
import proofs.«143396_j58600533786650_1_alg».proof.Proof.Gen.Kernel.Points
import proofs.«143396_j58600533786650_1_alg».proof.Proof.Gen.Kernel.Frame
import proofs.«143396_j58600533786650_1_alg».proof.Proof.Gen.KernelIdeal
import proofs.«143396_j58600533786650_1_alg».proof.Proof.Gen.KernelIdeal.Skeleton
import proofs.«143396_j58600533786650_1_alg».proof.Proof.Gen.KernelIdeal.Launch
import proofs.«143396_j58600533786650_1_alg».proof.Proof.Gen.KernelIdeal.Points
import proofs.«143396_j58600533786650_1_alg».proof.Proof.Gen.KernelIdeal.Frame
import proofs.«143396_j58600533786650_1_alg».proof.Proof.Gen.ReferenceIdeal
import proofs.«143396_j58600533786650_1_alg».proof.Proof.Gen.Pre_finite_inputs
import proofs.«143396_j58600533786650_1_alg».proof.Proof.KernelRun
import proofs.«143396_j58600533786650_1_alg».proof.Proof.KernelValue
import proofs.«143396_j58600533786650_1_alg».proof.Proof.RefRunPatched
import proofs.«143396_j58600533786650_1_alg».proof.Proof.RefStages
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the four arguments both programs end with the result array at the reference's three
    layers of those arguments. -/
theorem algebraic : Cert.algebraic_KernelIdeal_ReferenceIdeal := by
  intro m ρ m' ρ' _ hagree
  refine ⟨fun c => Cert.ReferenceIdeal.Stages.gcnOut (Cert.KernelIdeal.Hand.argE m c) (Cert.KernelIdeal.Hand.argX m c)
    (Cert.KernelIdeal.Hand.argW m c) (Cert.KernelIdeal.Hand.argB m c), ?_, ?_⟩
  · exact (θ_run Cert.KernelIdeal.defs _ _).mono (fun r h c => ⟨(h c).1.trans (Cert.KernelIdeal.Hand.value m ρ c), (h c).2⟩)
      (Cert.KernelIdeal.RunV.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Stages.res_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
